-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x1024x1024 .f32) (main_arg1 : FVec F S3072x1024 .f32) (main_arg2 : FVec F S1024x1024 .f32) (main_arg3 : FVec F S1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x1024x1024 : Shape := ⟨3, ![8, 1024, 1024]⟩
abbrev S3072x1024 : Shape := ⟨2, ![3072, 1024]⟩
abbrev S1024x1024 : Shape := ⟨2, ![1024, 1024]⟩
abbrev S1024 : Shape := ⟨1, ![1024]⟩
abbrev S8192x1024 : Shape := ⟨2, ![8192, 1024]⟩
abbrev S8192x3072 : Shape := ⟨2, ![8192, 3072]⟩
abbrev S512x1024 : Shape := ⟨2, ![512, 1024]⟩
abbrev S512x3072 : Shape := ⟨2, ![512, 3072]⟩
abbrev S8x1024x3072 : Shape := ⟨3, ![8, 1024, 3072]⟩
abbrev S1x1024x128 : Shape := ⟨3, ![1, 1024, 128]⟩
abbrev S1024x128 : Shape := ⟨2, ![1024, 128]⟩
abbrev S1024x64 : Shape := ⟨2, ![1024, 64]⟩
abbrev S64x1024 : Shape := ⟨2, ![64, 1024]⟩
abbrev S1024x1 : Shape := ⟨2, ![1024, 1]⟩
abbrev S1x1024 : Shape := ⟨2, ![1, 1024]⟩

abbrev nBuf : Space → Nat
  | .hbm => 14
  | .vmem => 19
  | .smem => 0
  | _ => 0

abbrev bufTy : (tb : Table) → Fin (tcTables nBuf tb) → BufTy
  | .hbm, ⟨0, _⟩ => ⟨S8x1024x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S8192x1024, .f32⟩
  | .hbm, ⟨5, _⟩ => ⟨S3072x1024, .bf16⟩
  | .hbm, ⟨6, _⟩ => ⟨S1024x1024, .bf16⟩
  | .hbm, ⟨7, _⟩ => ⟨S8192x3072, .bf16⟩
  | .hbm, ⟨8, _⟩ => ⟨S8x1024x3072, .bf16⟩
  | .hbm, ⟨9, _⟩ => ⟨S8x1024x1024, .bf16⟩
  | .hbm, ⟨10, _⟩ => ⟨S8192x1024, .bf16⟩
  | .hbm, ⟨11, _⟩ => ⟨S1x1024, .f32⟩
  | .hbm, ⟨12, _⟩ => ⟨S8192x1024, .f32⟩
  | .hbm, ⟨13, _⟩ => ⟨S8x1024x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S512x3072, .bf16⟩
  | .local _ .vmem, ⟨4, _⟩ => ⟨S512x3072, .bf16⟩
  | .local _ .vmem, ⟨5, _⟩ => ⟨S1x1024x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x1024x128, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S8x1024x1024_S8192x1024 : S8x1024x1024.ShapeCasts S8192x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S8192x3072_S8x1024x3072 : S8192x3072.ShapeCasts S8x1024x3072
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  slices_S1024x128_o0_0_S1024x64 : S1024x128.Slices ![0, 0] S1024x64
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  slices_S1024x128_o0_64_S1024x64 : S1024x128.Slices ![0, 64] S1024x64
  concatenates_S1024x64_S1024x64_S1024x128_d1 : Shape.Concatenates [S1024x64, S1024x64] S1024x128 1
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x1024_S8x1024x1024 : S8192x1024.ShapeCasts S8x1024x1024
  dot_S512x1024_S3072x1024_S512x3072_1_1_0_0_n_n_wf : DotDims.WF S512x1024 S3072x1024 S512x3072 [1] [1] [0] [0] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S8192x3072.size a
  hwx0_2 : ∀ i : grid0.Coords, EltTy.bits .bf16 = 32 ∨ (Rect.block (s := S8192x3072) S512x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S8x1024x3072.size a
  hwx1_0 : ∀ i : grid1.Coords, EltTy.bits .bf16 = 32 ∨ (Rect.block (s := S8x1024x3072) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S8x1024x3072.size a
  hwx1_1 : ∀ i : grid1.Coords, EltTy.bits .bf16 = 32 ∨ (Rect.block (s := S8x1024x3072) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S8x1024x3072.size a
  hwx1_2 : ∀ i : grid1.Coords, EltTy.bits .bf16 = 32 ∨ (Rect.block (s := S8x1024x3072) S1x1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S8x1024x1024.size a
  hwx1_3 : ∀ i : grid1.Coords, EltTy.bits .bf16 = 32 ∨ (Rect.block (s := S8x1024x1024) S1x1024x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x1024x1024 : Shape := ⟨3, ![8, 1024, 1024]⟩
abbrev S3072x1024 : Shape := ⟨2, ![3072, 1024]⟩
abbrev S1024x1024 : Shape := ⟨2, ![1024, 1024]⟩
abbrev S1024 : Shape := ⟨1, ![1024]⟩
abbrev S8x1024x3072 : Shape := ⟨3, ![8, 1024, 3072]⟩
abbrev S8x1024x3x16x64 : Shape := ⟨5, ![8, 1024, 3, 16, 64]⟩
abbrev S3x8x16x1024x64 : Shape := ⟨5, ![3, 8, 16, 1024, 64]⟩
abbrev S1x8x16x1024x64 : Shape := ⟨5, ![1, 8, 16, 1024, 64]⟩
abbrev S8x16x1024x64 : Shape := ⟨4, ![8, 16, 1024, 64]⟩
abbrev S8x16x1024x1024 : Shape := ⟨4, ![8, 16, 1024, 1024]⟩
abbrev S_ : Shape := ⟨0, ![]⟩
abbrev S8x16x1024 : Shape := ⟨3, ![8, 16, 1024]⟩
abbrev S8x16x1024x1 : Shape := ⟨4, ![8, 16, 1024, 1]⟩
abbrev S8x1024x16x64 : Shape := ⟨4, ![8, 1024, 16, 64]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S8x1024x3072, .f32⟩
  | .hbm, ⟨5, _⟩ => ⟨S8x1024x3x16x64, .f32⟩
  | .hbm, ⟨6, _⟩ => ⟨S3x8x16x1024x64, .f32⟩
  | .hbm, ⟨7, _⟩ => ⟨S1x8x16x1024x64, .f32⟩
  | .hbm, ⟨8, _⟩ => ⟨S8x16x1024x64, .f32⟩
  | .hbm, ⟨9, _⟩ => ⟨S1x8x16x1024x64, .f32⟩
  | .hbm, ⟨10, _⟩ => ⟨S8x16x1024x64, .f32⟩
  | .hbm, ⟨11, _⟩ => ⟨S1x8x16x1024x64, .f32⟩
  | .hbm, ⟨12, _⟩ => ⟨S8x16x1024x64, .f32⟩
  | .hbm, ⟨13, _⟩ => ⟨S8x16x1024x1024, .f32⟩
  | .hbm, ⟨14, _⟩ => ⟨S_, .f32⟩
  | .hbm, ⟨15, _⟩ => ⟨S8x16x1024x1024, .f32⟩
  | .hbm, ⟨16, _⟩ => ⟨S8x16x1024x1024, .f32⟩
  | .hbm, ⟨17, _⟩ => ⟨S_, .f32⟩
  | .hbm, ⟨18, _⟩ => ⟨S8x16x1024, .f32⟩
  | .hbm, ⟨19, _⟩ => ⟨S_, .f32⟩
  | .hbm, ⟨20, _⟩ => ⟨S8x16x1024, .f32⟩
  | .hbm, ⟨21, _⟩ => ⟨S8x16x1024, .f32⟩
  | .hbm, ⟨22, _⟩ => ⟨S8x16x1024x1, .f32⟩
  | .hbm, ⟨23, _⟩ => ⟨S8x16x1024x1024, .f32⟩
  | .hbm, ⟨24, _⟩ => ⟨S8x16x1024x1024, .f32⟩
  | .hbm, ⟨25, _⟩ => ⟨S8x16x1024x1024, .f32⟩
  | .hbm, ⟨26, _⟩ => ⟨S_, .f32⟩
  | .hbm, ⟨27, _⟩ => ⟨S8x16x1024, .f32⟩
  | .hbm, ⟨28, _⟩ => ⟨S8x16x1024x1, .f32⟩
  | .hbm, ⟨29, _⟩ => ⟨S8x16x1024x1024, .f32⟩
  | .hbm, ⟨30, _⟩ => ⟨S8x16x1024x1024, .f32⟩
  | .hbm, ⟨31, _⟩ => ⟨S8x16x1024x64, .f32⟩
  | .hbm, ⟨32, _⟩ => ⟨S8x1024x16x64, .f32⟩
  | .hbm, ⟨33, _⟩ => ⟨S8x1024x1024, .f32⟩
  | .hbm, ⟨34, _⟩ => ⟨S8x1024x1024, .f32⟩
  | .hbm, ⟨35, _⟩ => ⟨S1x1x1024, .f32⟩
  | .hbm, ⟨36, _⟩ => ⟨S8x1024x1024, .f32⟩
  | .hbm, ⟨37, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S8x1024x3072_S8x1024x3x16x64 : S8x1024x3072.ShapeCasts S8x1024x3x16x64
  transposes_S8x1024x3x16x64_S3x8x16x1024x64_2_0_3_1_4 : S8x1024x3x16x64.Transposes [2, 0, 3, 1, 4] S3x8x16x1024x64
  slices_S3x8x16x1024x64_S1x8x16x1024x64_0_0_0_0_0 : S3x8x16x1024x64.Slices ![0, 0, 0, 0, 0] S1x8x16x1024x64
  shapeCasts_S1x8x16x1024x64_S8x16x1024x64 : S1x8x16x1024x64.ShapeCasts S8x16x1024x64
  slices_S3x8x16x1024x64_S1x8x16x1024x64_1_0_0_0_0 : S3x8x16x1024x64.Slices ![1, 0, 0, 0, 0] S1x8x16x1024x64
  slices_S3x8x16x1024x64_S1x8x16x1024x64_2_0_0_0_0 : S3x8x16x1024x64.Slices ![2, 0, 0, 0, 0] S1x8x16x1024x64
  bcast_S_S8x16x1024x1024 : S_.BroadcastsInDim S8x16x1024x1024 (![] : Fin 0 → Fin S8x16x1024x1024.rank)
  reducesTo_S8x16x1024x1024_S8x16x1024_d3 : S8x16x1024x1024.ReducesTo [3] S8x16x1024
  h_S_ : 0 < S_.numel
  bcast_S_S8x16x1024 : S_.BroadcastsInDim S8x16x1024 (![] : Fin 0 → Fin S8x16x1024.rank)
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  transposes_S8x16x1024x64_S8x1024x16x64_0_2_1_3 : S8x16x1024x64.Transposes [0, 2, 1, 3] S8x1024x16x64
  shapeCasts_S8x1024x16x64_S8x1024x1024 : S8x1024x16x64.ShapeCasts S8x1024x1024
  bcast_S1024_S1x1x1024_2 : S1024.BroadcastsInDim S1x1x1024 (![2] : Fin 1 → Fin S1x1x1024.rank)
  bcast_S1x1x1024_S8x1024x1024_0_1_2 : S1x1x1024.BroadcastsInDim S8x1024x1024 (![0, 1, 2] : Fin 3 → Fin S8x1024x1024.rank)
  dot_S8x1024x1024_S3072x1024_S8x1024x3072_2_1_01_0_n_n_wf : DotDims.WF S8x1024x1024 S3072x1024 S8x1024x3072 [2] [1] [0, 1] [0] [] []
  dot_S8x16x1024x64_S8x16x1024x64_S8x16x1024x1024_3_3_2_2_01_01_wf : DotDims.WF S8x16x1024x64 S8x16x1024x64 S8x16x1024x1024 [3] [3] [2] [2] [0, 1] [0, 1]
  dot_S8x16x1024x1024_S8x16x1024x64_S8x16x1024x64_3_2_2_3_01_01_wf : DotDims.WF S8x16x1024x1024 S8x16x1024x64 S8x16x1024x64 [3] [2] [2] [3] [0, 1] [0, 1]
  dot_S8x1024x1024_S1024x1024_S8x1024x1024_2_1_01_0_n_n_wf : DotDims.WF S8x1024x1024 S1024x1024 S8x1024x1024 [2] [1] [0, 1] [0] [] []

variable [Facts₀]

def dot_S8x1024x1024_S3072x1024_S8x1024x3072_2_1_01_0_n_n : DotDims S8x1024x1024 S3072x1024 S8x1024x3072 where
  lhsContracting := [2]
  rhsContracting := [1]
  lhsNonContracting := [0, 1]
  rhsNonContracting := [0]
  lhsBatch := []
  rhsBatch := []
  wf := dot_S8x1024x1024_S3072x1024_S8x1024x3072_2_1_01_0_n_n_wf
def dot_S8x16x1024x64_S8x16x1024x64_S8x16x1024x1024_3_3_2_2_01_01 : DotDims S8x16x1024x64 S8x16x1024x64 S8x16x1024x1024 where
  lhsContracting := [3]
  rhsContracting := [3]
  lhsNonContracting := [2]
  rhsNonContracting := [2]
  lhsBatch := [0, 1]
  rhsBatch := [0, 1]
  wf := dot_S8x16x1024x64_S8x16x1024x64_S8x16x1024x1024_3_3_2_2_01_01_wf
def dot_S8x16x1024x1024_S8x16x1024x64_S8x16x1024x64_3_2_2_3_01_01 : DotDims S8x16x1024x1024 S8x16x1024x64 S8x16x1024x64 where
  lhsContracting := [3]
  rhsContracting := [2]
  lhsNonContracting := [2]
  rhsNonContracting := [3]
  lhsBatch := [0, 1]
  rhsBatch := [0, 1]
  wf := dot_S8x16x1024x1024_S8x16x1024x64_S8x16x1024x64_3_2_2_3_01_01_wf
def dot_S8x1024x1024_S1024x1024_S8x1024x1024_2_1_01_0_n_n : DotDims S8x1024x1024 S1024x1024 S8x1024x1024 where
  lhsContracting := [2]
  rhsContracting := [1]
  lhsNonContracting := [0, 1]
  rhsNonContracting := [0]
  lhsBatch := []
  rhsBatch := []
  wf := dot_S8x1024x1024_S1024x1024_S8x1024x1024_2_1_01_0_n_n_wf

class Facts : Prop extends Facts₀ where

variable [Facts]
-- ==== Proof.KI.Reg0.lean ====
/-
  The first kernel (the joint q/k/v projection) on its grid of 16 row blocks, at any float instance.

  Grid point t stages rows 512·t … 512·t+511 of the flattened input (window 0), the whole weight matrix
  (window 1, resident: fetched once) and writes back rows 512·t … of the result (window 2). The body reads the
  two staged blocks whole and stores one whole block: the product of the row block with the transposed weights.
  Here: each window's block at a point read off the array the region finds; what the body leaves in the output's
  staging buffer as a function of the two input blocks; the body's triple; the proof data of the pipeline (the
  arrays as found, after the body each input's buffer still at its block and the output's at that function of them);
  and the body obligation at every grid point.
-/
import proofs.«130550_j23562190586362_2_alg».proof.Proof.Gen.KernelIdeal.Launch
import proofs.«130550_j23562190586362_2_alg».proof.Proof.Gen.KernelIdeal.Skeleton
import proofs.«130550_j23562190586362_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S512x1024 := Rect.unit (s := S512x1024) ![0, 0] S512x1024.size inb_S512x1024_S512x1024_0_0
abbrev r0_1 : Rect S3072x1024 := Rect.unit (s := S3072x1024) ![0, 0] S3072x1024.size inb_S3072x1024_S3072x1024_0_0
abbrev r0_2 : Rect S512x3072 := Rect.unit (s := S512x3072) ![0, 0] S512x3072.size inb_S512x3072_S512x3072_0_0

/-- The output's staging buffer after the body, from the two input blocks: its one store, of the body's product. -/
def out0_2 (x0 : Vec F S512x1024 .f32) (x1 : Vec F S3072x1024 .bf16) : Vec F S512x3072 .bf16 :=
  View.canon [⟨r0_2, k0_pay1 (View.ld x0 r0_0) (View.ld x1 r0_1)⟩]

/-- The one store covers the buffer. -/
theorem cover0_2 (p0 : Vec F S512x3072 .bf16) (y : S512x3072.Idx) :
    ∃ pc ∈ ([⟨r0_2, p0⟩] : List (View.Piece (Elt F) S512x3072 .bf16)), y ∈ pc.1.set :=
  View.cover_of_tiled [⟨r0_2, p0⟩] S512x3072.size (by rfl) y

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg1 : Memref sig .tc .vmem S512x1024 .f32) (harg1 : arg1.IsWhole) (arg2 : Memref sig .tc .vmem S3072x1024 .bf16) (harg2 : arg2.IsWhole) (arg3 : Memref sig .tc .vmem S512x3072 .bf16) (harg3 : arg3.IsWhole)
    (x0 : Vec F S512x1024 .f32) (x1 : Vec F S3072x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_proj_kernel i arg1 harg1 arg2 harg2 arg3 harg3) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each
    input's buffer at its block and the output's at `out0_2` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  The attention kernel on its grid of 8 × 8 points (batch b, head pair g), at any float instance.

  Grid point (b, g) stages three blocks of ONE array, the joint projection [8, 1024, 3072]: rows of batch b, lanes
  128·g … of the query section (window 0), of the key section (window 1, 1024 lanes further) and of the value section
  (window 2, 2048 lanes further); it writes back the block of batch b, lanes 128·g … of the result (window 3). The
  three input windows share their array, so each holds it at a share of its own: the two halves of the left half
  and the right half of the full share. The body reads the three staged blocks whole and stores one whole block. Here:
  the windows' blocks, what the body leaves in the output's staging buffer as a function of the three input blocks, the
  body's triple, the pipeline's proof data and the body obligation.
-/
import proofs.«130550_j23562190586362_2_alg».proof.Proof.Gen.KernelIdeal.Launch
import proofs.«130550_j23562190586362_2_alg».proof.Proof.Gen.KernelIdeal.Skeleton
import proofs.«130550_j23562190586362_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangle the body loads and stores through. -/
abbrev r1_0 : Rect S1x1024x128 := Rect.unit (s := S1x1024x128) ![0, 0, 0] S1x1024x128.size inb_S1x1024x128_S1x1024x128_0_0_0

/-- The output's staging buffer after the body, from the three input blocks (query, key, value): its one store. -/
def out1_3 (x0 x1 x2 : Vec F S1x1024x128 .bf16) : Vec F S1x1024x128 .bf16 :=
  View.canon [⟨r1_0, k1_pay1 (k1_pay5 (View.ld x0 r1_0) (View.ld x1 r1_0) (View.ld x2 r1_0)) (k1_pay6 (View.ld x2 r1_0))
    (k1_pay7 (View.ld x0 r1_0) (View.ld x1 r1_0)) (k1_pay8 (View.ld x0 r1_0) (View.ld x1 r1_0))⟩]

/-- The one store covers the buffer. -/
theorem cover1_3 (p0 : Vec F S1x1024x128 .bf16) (y : S1x1024x128.Idx) :
    ∃ pc ∈ ([⟨r1_0, p0⟩] : List (View.Piece (Elt F) S1x1024x128 .bf16)), y ∈ pc.1.set :=
  View.cover_of_tiled [⟨r1_0, p0⟩] S1x1024x128.size (by rfl) y

set_option maxHeartbeats 1000000 in
/-- The body on whole staging memrefs, the inputs' at contents `x0`, `x1`, `x2` and the output's at anything, runs to the
    continuation holding the inputs' as they were and the output's at `out1_3 x0 x1 x2`. -/
theorem sound_kernel1 (c : Dev nD) (E : Set ℕ) (i : grid1.Coords) (arg2 : Memref sig .tc .vmem S1x1024x128 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole)
    (x0 x1 x2 : Vec F S1x1024x128 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The shares the three input windows hold their common array at. -/
abbrev q1 : Fin cfg1.W → PosShare TreeShare
  | ⟨0, _⟩ => (fullShare : PosShare TreeShare).left.left
  | ⟨1, _⟩ => (fullShare : PosShare TreeShare).left.right
  | ⟨2, _⟩ => (fullShare : PosShare TreeShare).right
  | _ => fullShare

/-- The pipeline's proof data on core `c`: the arrays as the region finds them; after the body at point `t` each
    input's buffer at its block and the output's at `out1_3` of the input blocks; the invariant the scoped rest and the
    generator register, untouched; nothing owed; the input windows' shares of their common array. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q1
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  The last kernel (the output projection with its bias) on its grid of 16 row blocks, at any float instance.

  Grid point t stages rows 512·t … 512·t+511 of the flattened attention output (window 0), the whole weight matrix
  (window 1) and the bias row (window 2), both resident, and writes back rows 512·t … of the result (window 3). The body
  reads the three staged blocks whole and stores one whole block: the product of the row block with the transposed
  weights, plus the bias row on every row. Here: the windows' blocks, what the body leaves in the output's staging
  buffer as a function of the three input blocks, the body's triple, the pipeline's proof data and the body obligation.
-/
import proofs.«130550_j23562190586362_2_alg».proof.Proof.Gen.KernelIdeal.Launch
import proofs.«130550_j23562190586362_2_alg».proof.Proof.Gen.KernelIdeal.Skeleton
import proofs.«130550_j23562190586362_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0

/-- The output's staging buffer after the body, from the three input blocks: its one store. -/
def out2_3 (x0 : Vec F S512x1024 .bf16) (x1 : Vec F S1024x1024 .bf16) (x2 : Vec F S1x1024 .f32) : Vec F S512x1024 .f32 :=
  View.canon [⟨r2_0, k2_pay1 (View.ld x0 r2_0) (View.ld x1 r2_1) (View.ld x2 r2_2)⟩]

/-- The one store covers the buffer. -/
theorem cover2_3 (p0 : Vec F S512x1024 .f32) (y : S512x1024.Idx) :
    ∃ pc ∈ ([⟨r2_0, p0⟩] : List (View.Piece (Elt F) S512x1024 .f32)), y ∈ pc.1.set :=
  View.cover_of_tiled [⟨r2_0, p0⟩] S512x1024.size (by rfl) y

set_option maxHeartbeats 1000000 in
/-- The body on whole staging memrefs, the inputs' at contents `x0`, `x1`, `x2` and the output's at anything, runs to the
    continuation holding the inputs' as they were and the output's at `out2_3 x0 x1 x2`. -/
theorem sound_kernel2 (c : Dev nD) (E : Set ℕ) (i : grid2.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__out_proj_kernel i arg1 harg1 arg2 harg2 arg3 harg3 arg4 harg4) K := by
  simp only [cc2__out_proj_kernel_eq_skeleton]; unfold cc2__out_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each
    input's buffer at its block and the output's at `out2_3` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Share1.lean ====
/-
  The attention kernel's three input windows share one array. The buffer behind it, held whole at the full share,
  is dealt among them — the two halves of the left half and the right half — when the region is entered, and
  gathered back when it is left; the output window's array stays at the full share.
-/
import proofs.«130550_j23562190586362_2_alg».proof.Proof.KI.Reg1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The buffers behind the attention kernel's windows: the joint projection and the result. -/
theorem img1 : Finset.univ.image (Pipeline.arrRef spec1) = ({main_v4, main_v5} : Finset (Ref sig .tc)) := by decide

/-- The proof data's arrays, window by window, as points-tos of the two buffers behind them. -/
theorem arrays1_eq (c : Dev nD) (Vv : (b : Ref sig .tc) → Buf (Elt F) ((c : Thread nD τ).loc b))
    (dat : Dat τ (Elt F) Unit ℕ (UR sig nD τ) ℕ cfg1 c) (hq : dat.q = q1)
    (A : (w : Fin cfg1.W) → Buf (Elt F) ((cfg1.win w).arr.view.loc (c : Thread nD τ))) (hA : ∀ w, A w = Vv (Pipeline.arrRef spec1 w)) :
    (dat.arrays A : sProp 𝕄) = iprop((((c : Thread nD τ).loc main_v4) ↦{(fullShare : PosShare TreeShare).left.left} Vv main_v4)
      ∗ (((c : Thread nD τ).loc main_v4) ↦{(fullShare : PosShare TreeShare).left.right} Vv main_v4)
      ∗ (((c : Thread nD τ).loc main_v4) ↦{(fullShare : PosShare TreeShare).right} Vv main_v4)
      ∗ (((c : Thread nD τ).loc main_v5) ↦{fullShare} Vv main_v5)) := by
  unfold Pipeline.Dat.arrays
  rw [bigSep_W1, (arr_whole1 0).set_eq_univ, (arr_whole1 3).set_eq_univ, hA 0, hA 1, hA 2, hA 3]
  have h0 : dat.share 0 = (fullShare : PosShare TreeShare).left.left := by unfold Pipeline.Dat.share; rw [hq]; rfl
  have h1 : dat.share 1 = (fullShare : PosShare TreeShare).left.right := by unfold Pipeline.Dat.share; rw [hq]; rfl
  have h2 : dat.share 2 = (fullShare : PosShare TreeShare).right := by unfold Pipeline.Dat.share; rw [hq]; rfl
  have h3 : dat.share 3 = fullShare := by unfold Pipeline.Dat.share; rfl
  rw [h0, h1, h2, h3]

/-- The two buffers behind the windows, one by one. -/
theorem arrBufs1_eq (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = iprop((((c : Thread nD τ).loc main_v4) ↦{fullShare} Vv main_v4) ∗ (((c : Thread nD τ).loc main_v5) ↦{fullShare} Vv main_v5)) := by
  unfold Pipeline.arrBufs
  rw [img1, show ({main_v4, main_v5} : Finset (Ref sig .tc)) = insert main_v4 {main_v5} from rfl, bigSep_insert (by decide), bigSep_singleton]
  rfl

/-- ENTRY: the two buffers whole at the full share make the proof data's arrays. -/
theorem arrays1_split (c : Dev nD) (Vv : (b : Ref sig .tc) → Buf (Elt F) ((c : Thread nD τ).loc b))
    (dat : Dat τ (Elt F) Unit ℕ (UR sig nD τ) ℕ cfg1 c) (hq : dat.q = q1)
    (A : (w : Fin cfg1.W) → Buf (Elt F) ((cfg1.win w).arr.view.loc (c : Thread nD τ))) (hA : ∀ w, A w = Vv (Pipeline.arrRef spec1 w)) :
    (Pipeline.arrBufs (Ix := Unit) (Name := ℕ) (U := UR sig nD τ) (Lvl := ℕ) spec1 c Vv : sProp 𝕄) ⊢ dat.arrays A := by
  rw [arrays1_eq c Vv dat hq A hA]
  rw [arrBufs1_eq]
  iintro ⟨H4, H5⟩
  ihave H2 := (pointsTo_share (PosShare.mem_left_op_right (fullShare : PosShare TreeShare))).1 $$ H4
  icases H2 with ⟨HL, HR⟩
  ihave HL2 := (pointsTo_share (PosShare.mem_left_op_right (fullShare : PosShare TreeShare).left)).1 $$ HL
  icases HL2 with ⟨H0, H1⟩
  isplitl [H0]; · iexact H0
  isplitl [H1]; · iexact H1
  isplitl [HR]; · iexact HR
  iexact H5

/-- EXIT: the proof data's arrays make the two buffers whole at the full share again. -/
theorem arrays1_join (c : Dev nD) (Vv : (b : Ref sig .tc) → Buf (Elt F) ((c : Thread nD τ).loc b))
    (dat : Dat τ (Elt F) Unit ℕ (UR sig nD τ) ℕ cfg1 c) (hq : dat.q = q1)
    (A : (w : Fin cfg1.W) → Buf (Elt F) ((cfg1.win w).arr.view.loc (c : Thread nD τ))) (hA : ∀ w, A w = Vv (Pipeline.arrRef spec1 w)) :
    (dat.arrays A : sProp 𝕄) ⊢ Pipeline.arrBufs (Ix := Unit) (Name := ℕ) (U := UR sig nD τ) (Lvl := ℕ) spec1 c Vv := by
  rw [arrays1_eq c Vv dat hq A hA]
  rw [arrBufs1_eq]
  iintro ⟨H0, H1, HR, H5⟩
  isplitr [H5]
  · iapply (pointsTo_share (PosShare.mem_left_op_right (fullShare : PosShare TreeShare))).2
    isplitr [HR]
    · iapply (pointsTo_share (PosShare.mem_left_op_right (fullShare : PosShare TreeShare).left)).2
      isplitl [H0]; · iexact H0
      iexact H1
    iexact HR
  iexact H5

end Cert.KernelIdeal.Hand

end
-- ==== Proof.KI.Run.lean ====
/-
  The whole program at any float instance: @main as seven segments — the host lines before the first kernel, the
  first kernel, the reshape of its result, the attention kernel, two reshapes, the last kernel, the final reshape —
  run from the launch to the return.

  The contents of every buffer that outlives a kernel are followed through the segments as a fold from the launch memory
  (`W0` … `W7`): a host stretch applies its operations; a kernel leaves its input arrays as it found them and its output
  array at what its write-backs leave (the pipeline library's `arrAt … N` of the proof data). Between two segments a core
  holds every such buffer whole at the fold's contents, beside its generator register and nothing owed. The run's
  post reads every such buffer of the final memory at `W7`; the argument arrays walk back through the fold to the launch
  memory (no segment writes one), and the result array is read at `W7` for the value claim.
-/
import proofs.«130550_j23562190586362_2_alg».proof.Proof.KI.Reg0
import proofs.«130550_j23562190586362_2_alg».proof.Proof.KI.Reg1
import proofs.«130550_j23562190586362_2_alg».proof.Proof.KI.Reg2
import proofs.«130550_j23562190586362_2_alg».proof.Proof.KI.Share1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the first kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first kernel's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape of the joint projection (the attention kernel's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention kernel's exit: its output array at what the pipeline leaves, every other buffer as entered
    (its three input windows share one array, which it leaves as found). -/
def W4 (c : Dev nD) : Valuation τ sig (Elt F) :=
  Function.update (W3 m ρ c) (Proc.devRef .tc main_v5) ((dat1 (V3 m ρ) c).arrAt 3 cfg1.N)
theorem W4_out (c : Dev nD) : W4 m ρ c (Proc.devRef .tc main_v5) = (dat1 (V3 m ρ) c).arrAt 3 cfg1.N := by
  unfold W4; exact Function.update_self _ _ _
theorem W4_of_ne (c : Dev nD) (b : Ref sig .tc) (hb : b ≠ main_v5) :
    W4 m ρ c (Proc.devRef .tc b) = W3 m ρ c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m ρ c b

/-- After the two reshapes (the last kernel's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At the last kernel's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the final reshape: the contents the program returns with. -/
abbrev W7 : Dev nD → Valuation τ sig (Elt F) := fun c => StableHlo.after hostOps3 (W6 m ρ c)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W7`, the generator register at some state. -/
abbrev Tₙ (c : Dev nD) : sProp 𝕄 := iprop(StableHlo.held (c : Thread nD τ) (Pipeline.ucRefs τ sig) (W7 m ρ c) ∗ ∃ r, prngReg c r)

/-! ## The kernels as segments -/

-- a library lemma stated over the pinned configuration unifies with the printed one only when unification may unfold
-- plain definitions in a metavariable's type
set_option backward.isDefEq.respectTransparency.types false in
/-- Region 0 over the thread state: entered from every unscoped buffer at `W1`, left at `W2`. Its arrays are
    split out of the unscoped buffers and put back at the exit contents; the generator register goes into the region
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `W5`, left at `W6`. Its arrays are
    split out of the unscoped buffers and put back at the exit contents; the generator register goes into the region
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the attention kernel's exit each of its arrays holds what the pipeline leaves — the shared input array what it
    held at entry, the output array its write-backs — and every other buffer what it held at entry. -/
theorem hF1 (c : Dev nD) : ∀ w : Fin cfg1.W, (dat1 (V3 m ρ) c).arrAt w cfg1.N = V4 m ρ c (Pipeline.arrRef spec1 w)
  | ⟨0, _⟩ => (((dat1 (V3 m ρ) c).arrAt_in 0 rfl _).trans (A_eq1 (V3 m ρ) c 0)).trans (W4_of_ne m ρ c main_v4 (by decide)).symm
  | ⟨1, _⟩ => (((dat1 (V3 m ρ) c).arrAt_in 1 rfl _).trans (A_eq1 (V3 m ρ) c 1)).trans (W4_of_ne m ρ c main_v4 (by decide)).symm
  | ⟨2, _⟩ => (((dat1 (V3 m ρ) c).arrAt_in 2 rfl _).trans (A_eq1 (V3 m ρ) c 2)).trans (W4_of_ne m ρ c main_v4 (by decide)).symm
  | ⟨3, _⟩ => (W4_out m ρ c).symm
theorem hrest1 (c : Dev nD) : ∀ b, b ∉ Finset.univ.image (Pipeline.arrRef spec1) → V4 m ρ c b = V3 m ρ c b :=
  fun b hb => W4_of_ne m ρ c b fun e => hb (Finset.mem_image.mpr ⟨3, Finset.mem_univ _, e.symm⟩)

set_option backward.isDefEq.respectTransparency.types false in
/-- Region 1 over the thread state: entered from every unscoped buffer at `W3`, left at `W4`. The buffer behind its
    three input windows is dealt among them at entry and gathered at exit (the shares of `q1`). -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (StableHlo.held (c : Thread nD τ) (Pipeline.ucRefs τ sig) (W3 m ρ c) : sProp 𝕄)
        ⊢ iprop((pdats m ρ 1 c).arrays ((pdats m ρ 1 c).arrAt · 0)
            ∗ Pipeline.unscopedRest (Ix := Unit) (Name := ℕ) (U := UR sig nD τ) (Lvl := ℕ) spec1 c (V3 m ρ c)) := by
      rw [← Pipeline.unscopedBufs_held c (W3 m ρ c),
        Pipeline.unscopedBufs_split₀ (Pipeline.pin (pcfgs (F := F)) adm) 1 winFacts₀1.arr_unscoped c (V3 m ρ c)]
      exact sep_mono (arrays1_split c (V3 m ρ c) (pdats m ρ 1 c) rfl _ (fun _ => rfl)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V3 m ρ c))
        ⊢ (StableHlo.held (c : Thread nD τ) (Pipeline.ucRefs τ sig) (W4 m ρ c) : sProp 𝕄) := by
      rw [← Pipeline.unscopedBufs_held c (W4 m ρ c),
        Pipeline.unscopedBufs_split₀ (Pipeline.pin (pcfgs (F := F)) adm) 1 winFacts₀1.arr_unscoped c (V4 m ρ c)]
      refine sep_mono (arrays1_join c (V4 m ρ c) (pdats m ρ 1 c) rfl _ (hF1 m ρ c)) (Entails.of_eq ?_)
      unfold Pipeline.unscopedRest
      exact bigSep_congr fun b hb => by rw [hrest1 m ρ c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state holds every buffer that outlives the kernels at
    the fold's last contents `W7`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Hand

end
-- ==== Proof.KI.Args.lean ====
/-
  No segment of @main writes an argument array: each host stretch writes only its own results, each kernel changes
  only its output array. So the fold of buffer contents, read at an argument, walks back to the launch memory.
-/
import proofs.«130550_j23562190586362_2_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A host stretch leaves a buffer it does not write as it was. -/
theorem after_keep (ops : List (HloOp τ sig (Elt F))) (W : Valuation τ sig (Elt F)) (b : Ref sig .tc)
    (h : ops.Forall fun op => Proc.devRef .tc b ∉ op.writes) :
    StableHlo.after ops W (Proc.devRef .tc b) = W (Proc.devRef .tc b) :=
  StableHlo.after_of_forall_not_mem (b := Proc.devRef .tc b) _ _ (List.forall_iff_forall_mem.mp h)

/-- None of the four host stretches writes the buffer `b`, for `b` none of their results. -/
theorem keep0 (b : Ref sig .tc) (h0 : b ≠ main_v0) (h1 : b ≠ main_v1) (h2 : b ≠ main_v2) :
    (hostOps0 : List (HloOp τ sig (Elt F))).Forall fun op => Proc.devRef .tc b ∉ op.writes := by
  simp only [hostOps0, List.Forall, StableHlo.unary_writes, StableHlo.reshape_writes, Finset.mem_singleton]
  exact ⟨StableHlo.devRef_ne_of_ne h0, StableHlo.devRef_ne_of_ne h1, StableHlo.devRef_ne_of_ne h2⟩
theorem keep1 (b : Ref sig .tc) (h : b ≠ main_v4) :
    (hostOps1 : List (HloOp τ sig (Elt F))).Forall fun op => Proc.devRef .tc b ∉ op.writes := by
  simp only [hostOps1, List.Forall, StableHlo.unary_writes, StableHlo.reshape_writes, Finset.mem_singleton]
  exact StableHlo.devRef_ne_of_ne h
theorem keep2 (b : Ref sig .tc) (h6 : b ≠ main_v6) (h7 : b ≠ main_v7) :
    (hostOps2 : List (HloOp τ sig (Elt F))).Forall fun op => Proc.devRef .tc b ∉ op.writes := by
  simp only [hostOps2, List.Forall, StableHlo.unary_writes, StableHlo.reshape_writes, Finset.mem_singleton]
  exact ⟨StableHlo.devRef_ne_of_ne h6, StableHlo.devRef_ne_of_ne h7⟩
theorem keep3 (b : Ref sig .tc) (h : b ≠ main_v9) :
    (hostOps3 : List (HloOp τ sig (Elt F))).Forall fun op => Proc.devRef .tc b ∉ op.writes := by
  simp only [hostOps3, List.Forall, StableHlo.unary_writes, StableHlo.reshape_writes, Finset.mem_singleton]
  exact StableHlo.devRef_ne_of_ne h

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := after_keep _ _ main_arg0 (keep3 main_arg0 (by decide))
    _ = W5 m ρ c (Proc.devRef .tc main_arg0) := W6_of_ne m ρ c main_arg0 (by decide)
    _ = W4 m ρ c (Proc.devRef .tc main_arg0) := after_keep _ _ main_arg0 (keep2 main_arg0 (by decide) (by decide))
    _ = W3 m ρ c (Proc.devRef .tc main_arg0) := W4_of_ne m ρ c main_arg0 (by decide)
    _ = W2 m ρ c (Proc.devRef .tc main_arg0) := after_keep _ _ main_arg0 (keep1 main_arg0 (by decide))
    _ = W1 m ρ c (Proc.devRef .tc main_arg0) := W2_of_ne m ρ c main_arg0 (by decide)
    _ = W0 m ρ c (Proc.devRef .tc main_arg0) := after_keep _ _ main_arg0 (keep0 main_arg0 (by decide) (by decide) (by decide))
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := after_keep _ _ main_arg1 (keep3 main_arg1 (by decide))
    _ = W5 m ρ c (Proc.devRef .tc main_arg1) := W6_of_ne m ρ c main_arg1 (by decide)
    _ = W4 m ρ c (Proc.devRef .tc main_arg1) := after_keep _ _ main_arg1 (keep2 main_arg1 (by decide) (by decide))
    _ = W3 m ρ c (Proc.devRef .tc main_arg1) := W4_of_ne m ρ c main_arg1 (by decide)
    _ = W2 m ρ c (Proc.devRef .tc main_arg1) := after_keep _ _ main_arg1 (keep1 main_arg1 (by decide))
    _ = W1 m ρ c (Proc.devRef .tc main_arg1) := W2_of_ne m ρ c main_arg1 (by decide)
    _ = W0 m ρ c (Proc.devRef .tc main_arg1) := after_keep _ _ main_arg1 (keep0 main_arg1 (by decide) (by decide) (by decide))
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := after_keep _ _ main_arg2 (keep3 main_arg2 (by decide))
    _ = W5 m ρ c (Proc.devRef .tc main_arg2) := W6_of_ne m ρ c main_arg2 (by decide)
    _ = W4 m ρ c (Proc.devRef .tc main_arg2) := after_keep _ _ main_arg2 (keep2 main_arg2 (by decide) (by decide))
    _ = W3 m ρ c (Proc.devRef .tc main_arg2) := W4_of_ne m ρ c main_arg2 (by decide)
    _ = W2 m ρ c (Proc.devRef .tc main_arg2) := after_keep _ _ main_arg2 (keep1 main_arg2 (by decide))
    _ = W1 m ρ c (Proc.devRef .tc main_arg2) := W2_of_ne m ρ c main_arg2 (by decide)
    _ = W0 m ρ c (Proc.devRef .tc main_arg2) := after_keep _ _ main_arg2 (keep0 main_arg2 (by decide) (by decide) (by decide))
    _ = m ((c : Thread nD τ).loc main_arg2) := rfl
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := after_keep _ _ main_arg3 (keep3 main_arg3 (by decide))
    _ = W5 m ρ c (Proc.devRef .tc main_arg3) := W6_of_ne m ρ c main_arg3 (by decide)
    _ = W4 m ρ c (Proc.devRef .tc main_arg3) := after_keep _ _ main_arg3 (keep2 main_arg3 (by decide) (by decide))
    _ = W3 m ρ c (Proc.devRef .tc main_arg3) := W4_of_ne m ρ c main_arg3 (by decide)
    _ = W2 m ρ c (Proc.devRef .tc main_arg3) := after_keep _ _ main_arg3 (keep1 main_arg3 (by decide))
    _ = W1 m ρ c (Proc.devRef .tc main_arg3) := W2_of_ne m ρ c main_arg3 (by decide)
    _ = W0 m ρ c (Proc.devRef .tc main_arg3) := after_keep _ _ main_arg3 (keep0 main_arg3 (by decide) (by decide) (by decide))
    _ = m ((c : Thread nD τ).loc main_arg3) := rfl

end Cert.KernelIdeal.Hand

end
-- ==== Proof.KB.Reg0.lean ====
/-
  The first kernel (the joint q/k/v projection) on its grid of 16 row blocks, at any float instance.

  Grid point t stages rows 512·t … 512·t+511 of the flattened input (window 0), the whole weight matrix
  (window 1, resident: fetched once) and writes back rows 512·t … of the result (window 2). The body reads the
  two staged blocks whole and stores one whole block: the product of the row block with the transposed weights.
  Here: each window's block at a point read off the array the region finds; what the body leaves in the output's
  staging buffer as a function of the two input blocks; the body's triple; the proof data of the pipeline (the
  arrays as found, after the body each input's buffer still at its block and the output's at that function of them);
  and the body obligation at every grid point.
-/
import proofs.«130550_j23562190586362_2_alg».proof.Proof.Gen.Kernel.Launch
import proofs.«130550_j23562190586362_2_alg».proof.Proof.Gen.Kernel.Skeleton
import proofs.«130550_j23562190586362_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S512x1024 := Rect.unit (s := S512x1024) ![0, 0] S512x1024.size inb_S512x1024_S512x1024_0_0
abbrev r0_1 : Rect S3072x1024 := Rect.unit (s := S3072x1024) ![0, 0] S3072x1024.size inb_S3072x1024_S3072x1024_0_0
abbrev r0_2 : Rect S512x3072 := Rect.unit (s := S512x3072) ![0, 0] S512x3072.size inb_S512x3072_S512x3072_0_0

/-- The output's staging buffer after the body, from the two input blocks: its one store, of the body's product. -/
def out0_2 (x0 : Vec F S512x1024 .f32) (x1 : Vec F S3072x1024 .bf16) : Vec F S512x3072 .bf16 :=
  View.canon [⟨r0_2, k0_pay1 (View.ld x0 r0_0) (View.ld x1 r0_1)⟩]

/-- The one store covers the buffer. -/
theorem cover0_2 (p0 : Vec F S512x3072 .bf16) (y : S512x3072.Idx) :
    ∃ pc ∈ ([⟨r0_2, p0⟩] : List (View.Piece (Elt F) S512x3072 .bf16)), y ∈ pc.1.set :=
  View.cover_of_tiled [⟨r0_2, p0⟩] S512x3072.size (by rfl) y

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg1 : Memref sig .tc .vmem S512x1024 .f32) (harg1 : arg1.IsWhole) (arg2 : Memref sig .tc .vmem S3072x1024 .bf16) (harg2 : arg2.IsWhole) (arg3 : Memref sig .tc .vmem S512x3072 .bf16) (harg3 : arg3.IsWhole)
    (x0 : Vec F S512x1024 .f32) (x1 : Vec F S3072x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_proj_kernel i arg1 harg1 arg2 harg2 arg3 harg3) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each
    input's buffer at its block and the output's at `out0_2` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1.lean ====
/-
  The attention kernel on its grid of 8 × 8 points (batch b, head pair g), at any float instance.

  Grid point (b, g) stages three blocks of ONE array, the joint projection [8, 1024, 3072]: rows of batch b, lanes
  128·g … of the query section (window 0), of the key section (window 1, 1024 lanes further) and of the value section
  (window 2, 2048 lanes further); it writes back the block of batch b, lanes 128·g … of the result (window 3). The
  three input windows share their array, so each holds it at a share of its own: the two halves of the left half
  and the right half of the full share. The body reads the three staged blocks whole and stores one whole block. Here:
  the windows' blocks, what the body leaves in the output's staging buffer as a function of the three input blocks, the
  body's triple, the pipeline's proof data and the body obligation.
-/
import proofs.«130550_j23562190586362_2_alg».proof.Proof.Gen.Kernel.Launch
import proofs.«130550_j23562190586362_2_alg».proof.Proof.Gen.Kernel.Skeleton
import proofs.«130550_j23562190586362_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangle the body loads and stores through. -/
abbrev r1_0 : Rect S1x1024x128 := Rect.unit (s := S1x1024x128) ![0, 0, 0] S1x1024x128.size inb_S1x1024x128_S1x1024x128_0_0_0

/-- The output's staging buffer after the body, from the three input blocks (query, key, value): its one store. -/
def out1_3 (x0 x1 x2 : Vec F S1x1024x128 .bf16) : Vec F S1x1024x128 .bf16 :=
  View.canon [⟨r1_0, k1_pay1 (k1_pay5 (View.ld x0 r1_0) (View.ld x1 r1_0) (View.ld x2 r1_0)) (k1_pay6 (View.ld x2 r1_0))
    (k1_pay7 (View.ld x0 r1_0) (View.ld x1 r1_0)) (k1_pay8 (View.ld x0 r1_0) (View.ld x1 r1_0))⟩]

/-- The one store covers the buffer. -/
theorem cover1_3 (p0 : Vec F S1x1024x128 .bf16) (y : S1x1024x128.Idx) :
    ∃ pc ∈ ([⟨r1_0, p0⟩] : List (View.Piece (Elt F) S1x1024x128 .bf16)), y ∈ pc.1.set :=
  View.cover_of_tiled [⟨r1_0, p0⟩] S1x1024x128.size (by rfl) y

set_option maxHeartbeats 1000000 in
/-- The body on whole staging memrefs, the inputs' at contents `x0`, `x1`, `x2` and the output's at anything, runs to the
    continuation holding the inputs' as they were and the output's at `out1_3 x0 x1 x2`. -/
theorem sound_kernel1 (c : Dev nD) (E : Set ℕ) (i : grid1.Coords) (arg2 : Memref sig .tc .vmem S1x1024x128 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole)
    (x0 x1 x2 : Vec F S1x1024x128 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The shares the three input windows hold their common array at. -/
abbrev q1 : Fin cfg1.W → PosShare TreeShare
  | ⟨0, _⟩ => (fullShare : PosShare TreeShare).left.left
  | ⟨1, _⟩ => (fullShare : PosShare TreeShare).left.right
  | ⟨2, _⟩ => (fullShare : PosShare TreeShare).right
  | _ => fullShare

/-- The pipeline's proof data on core `c`: the arrays as the region finds them; after the body at point `t` each
    input's buffer at its block and the output's at `out1_3` of the input blocks; the invariant the scoped rest and the
    generator register, untouched; nothing owed; the input windows' shares of their common array. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q1
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Reg2.lean ====
/-
  The last kernel (the output projection with its bias) on its grid of 16 row blocks, at any float instance.

  Grid point t stages rows 512·t … 512·t+511 of the flattened attention output (window 0), the whole weight matrix
  (window 1) and the bias row (window 2), both resident, and writes back rows 512·t … of the result (window 3). The body
  reads the three staged blocks whole and stores one whole block: the product of the row block with the transposed
  weights, plus the bias row on every row. Here: the windows' blocks, what the body leaves in the output's staging
  buffer as a function of the three input blocks, the body's triple, the pipeline's proof data and the body obligation.
-/
import proofs.«130550_j23562190586362_2_alg».proof.Proof.Gen.Kernel.Launch
import proofs.«130550_j23562190586362_2_alg».proof.Proof.Gen.Kernel.Skeleton
import proofs.«130550_j23562190586362_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0

/-- The output's staging buffer after the body, from the three input blocks: its one store. -/
def out2_3 (x0 : Vec F S512x1024 .bf16) (x1 : Vec F S1024x1024 .bf16) (x2 : Vec F S1x1024 .f32) : Vec F S512x1024 .f32 :=
  View.canon [⟨r2_0, k2_pay1 (View.ld x0 r2_0) (View.ld x1 r2_1) (View.ld x2 r2_2)⟩]

/-- The one store covers the buffer. -/
theorem cover2_3 (p0 : Vec F S512x1024 .f32) (y : S512x1024.Idx) :
    ∃ pc ∈ ([⟨r2_0, p0⟩] : List (View.Piece (Elt F) S512x1024 .f32)), y ∈ pc.1.set :=
  View.cover_of_tiled [⟨r2_0, p0⟩] S512x1024.size (by rfl) y

set_option maxHeartbeats 1000000 in
/-- The body on whole staging memrefs, the inputs' at contents `x0`, `x1`, `x2` and the output's at anything, runs to the
    continuation holding the inputs' as they were and the output's at `out2_3 x0 x1 x2`. -/
theorem sound_kernel2 (c : Dev nD) (E : Set ℕ) (i : grid2.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__out_proj_kernel i arg1 harg1 arg2 harg2 arg3 harg3 arg4 harg4) K := by
  simp only [cc2__out_proj_kernel_eq_skeleton]; unfold cc2__out_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each
    input's buffer at its block and the output's at `out2_3` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Share1.lean ====
/-
  The attention kernel's three input windows share one array. The buffer behind it, held whole at the full share,
  is dealt among them — the two halves of the left half and the right half — when the region is entered, and
  gathered back when it is left; the output window's array stays at the full share.
-/
import proofs.«130550_j23562190586362_2_alg».proof.Proof.KB.Reg1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The buffers behind the attention kernel's windows: the joint projection and the result. -/
theorem img1 : Finset.univ.image (Pipeline.arrRef spec1) = ({main_v4, main_v5} : Finset (Ref sig .tc)) := by decide

/-- The proof data's arrays, window by window, as points-tos of the two buffers behind them. -/
theorem arrays1_eq (c : Dev nD) (Vv : (b : Ref sig .tc) → Buf (Elt F) ((c : Thread nD τ).loc b))
    (dat : Dat τ (Elt F) Unit ℕ (UR sig nD τ) ℕ cfg1 c) (hq : dat.q = q1)
    (A : (w : Fin cfg1.W) → Buf (Elt F) ((cfg1.win w).arr.view.loc (c : Thread nD τ))) (hA : ∀ w, A w = Vv (Pipeline.arrRef spec1 w)) :
    (dat.arrays A : sProp 𝕄) = iprop((((c : Thread nD τ).loc main_v4) ↦{(fullShare : PosShare TreeShare).left.left} Vv main_v4)
      ∗ (((c : Thread nD τ).loc main_v4) ↦{(fullShare : PosShare TreeShare).left.right} Vv main_v4)
      ∗ (((c : Thread nD τ).loc main_v4) ↦{(fullShare : PosShare TreeShare).right} Vv main_v4)
      ∗ (((c : Thread nD τ).loc main_v5) ↦{fullShare} Vv main_v5)) := by
  unfold Pipeline.Dat.arrays
  rw [bigSep_W1, (arr_whole1 0).set_eq_univ, (arr_whole1 3).set_eq_univ, hA 0, hA 1, hA 2, hA 3]
  have h0 : dat.share 0 = (fullShare : PosShare TreeShare).left.left := by unfold Pipeline.Dat.share; rw [hq]; rfl
  have h1 : dat.share 1 = (fullShare : PosShare TreeShare).left.right := by unfold Pipeline.Dat.share; rw [hq]; rfl
  have h2 : dat.share 2 = (fullShare : PosShare TreeShare).right := by unfold Pipeline.Dat.share; rw [hq]; rfl
  have h3 : dat.share 3 = fullShare := by unfold Pipeline.Dat.share; rfl
  rw [h0, h1, h2, h3]

/-- The two buffers behind the windows, one by one. -/
theorem arrBufs1_eq (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = iprop((((c : Thread nD τ).loc main_v4) ↦{fullShare} Vv main_v4) ∗ (((c : Thread nD τ).loc main_v5) ↦{fullShare} Vv main_v5)) := by
  unfold Pipeline.arrBufs
  rw [img1, show ({main_v4, main_v5} : Finset (Ref sig .tc)) = insert main_v4 {main_v5} from rfl, bigSep_insert (by decide), bigSep_singleton]
  rfl

/-- ENTRY: the two buffers whole at the full share make the proof data's arrays. -/
theorem arrays1_split (c : Dev nD) (Vv : (b : Ref sig .tc) → Buf (Elt F) ((c : Thread nD τ).loc b))
    (dat : Dat τ (Elt F) Unit ℕ (UR sig nD τ) ℕ cfg1 c) (hq : dat.q = q1)
    (A : (w : Fin cfg1.W) → Buf (Elt F) ((cfg1.win w).arr.view.loc (c : Thread nD τ))) (hA : ∀ w, A w = Vv (Pipeline.arrRef spec1 w)) :
    (Pipeline.arrBufs (Ix := Unit) (Name := ℕ) (U := UR sig nD τ) (Lvl := ℕ) spec1 c Vv : sProp 𝕄) ⊢ dat.arrays A := by
  rw [arrays1_eq c Vv dat hq A hA]
  rw [arrBufs1_eq]
  iintro ⟨H4, H5⟩
  ihave H2 := (pointsTo_share (PosShare.mem_left_op_right (fullShare : PosShare TreeShare))).1 $$ H4
  icases H2 with ⟨HL, HR⟩
  ihave HL2 := (pointsTo_share (PosShare.mem_left_op_right (fullShare : PosShare TreeShare).left)).1 $$ HL
  icases HL2 with ⟨H0, H1⟩
  isplitl [H0]; · iexact H0
  isplitl [H1]; · iexact H1
  isplitl [HR]; · iexact HR
  iexact H5

/-- EXIT: the proof data's arrays make the two buffers whole at the full share again. -/
theorem arrays1_join (c : Dev nD) (Vv : (b : Ref sig .tc) → Buf (Elt F) ((c : Thread nD τ).loc b))
    (dat : Dat τ (Elt F) Unit ℕ (UR sig nD τ) ℕ cfg1 c) (hq : dat.q = q1)
    (A : (w : Fin cfg1.W) → Buf (Elt F) ((cfg1.win w).arr.view.loc (c : Thread nD τ))) (hA : ∀ w, A w = Vv (Pipeline.arrRef spec1 w)) :
    (dat.arrays A : sProp 𝕄) ⊢ Pipeline.arrBufs (Ix := Unit) (Name := ℕ) (U := UR sig nD τ) (Lvl := ℕ) spec1 c Vv := by
  rw [arrays1_eq c Vv dat hq A hA]
  rw [arrBufs1_eq]
  iintro ⟨H0, H1, HR, H5⟩
  isplitr [H5]
  · iapply (pointsTo_share (PosShare.mem_left_op_right (fullShare : PosShare TreeShare))).2
    isplitr [HR]
    · iapply (pointsTo_share (PosShare.mem_left_op_right (fullShare : PosShare TreeShare).left)).2
      isplitl [H0]; · iexact H0
      iexact H1
    iexact HR
  iexact H5

end Cert.Kernel.Hand

end
-- ==== Proof.KB.Run.lean ====
/-
  The whole program at any float instance: @main as seven segments — the host lines before the first kernel, the
  first kernel, the reshape of its result, the attention kernel, two reshapes, the last kernel, the final reshape —
  run from the launch to the return.

  The contents of every buffer that outlives a kernel are followed through the segments as a fold from the launch memory
  (`W0` … `W7`): a host stretch applies its operations; a kernel leaves its input arrays as it found them and its output
  array at what its write-backs leave (the pipeline library's `arrAt … N` of the proof data). Between two segments a core
  holds every such buffer whole at the fold's contents, beside its generator register and nothing owed. The run's
  post reads every such buffer of the final memory at `W7`; the argument arrays walk back through the fold to the launch
  memory (no segment writes one), and the result array is read at `W7` for the value claim.
-/
import proofs.«130550_j23562190586362_2_alg».proof.Proof.KB.Reg0
import proofs.«130550_j23562190586362_2_alg».proof.Proof.KB.Reg1
import proofs.«130550_j23562190586362_2_alg».proof.Proof.KB.Reg2
import proofs.«130550_j23562190586362_2_alg».proof.Proof.KB.Share1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the first kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first kernel's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape of the joint projection (the attention kernel's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention kernel's exit: its output array at what the pipeline leaves, every other buffer as entered
    (its three input windows share one array, which it leaves as found). -/
def W4 (c : Dev nD) : Valuation τ sig (Elt F) :=
  Function.update (W3 m ρ c) (Proc.devRef .tc main_v5) ((dat1 (V3 m ρ) c).arrAt 3 cfg1.N)
theorem W4_out (c : Dev nD) : W4 m ρ c (Proc.devRef .tc main_v5) = (dat1 (V3 m ρ) c).arrAt 3 cfg1.N := by
  unfold W4; exact Function.update_self _ _ _
theorem W4_of_ne (c : Dev nD) (b : Ref sig .tc) (hb : b ≠ main_v5) :
    W4 m ρ c (Proc.devRef .tc b) = W3 m ρ c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m ρ c b

/-- After the two reshapes (the last kernel's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At the last kernel's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the final reshape: the contents the program returns with. -/
abbrev W7 : Dev nD → Valuation τ sig (Elt F) := fun c => StableHlo.after hostOps3 (W6 m ρ c)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W7`, the generator register at some state. -/
abbrev Tₙ (c : Dev nD) : sProp 𝕄 := iprop(StableHlo.held (c : Thread nD τ) (Pipeline.ucRefs τ sig) (W7 m ρ c) ∗ ∃ r, prngReg c r)

/-! ## The kernels as segments -/

-- a library lemma stated over the pinned configuration unifies with the printed one only when unification may unfold
-- plain definitions in a metavariable's type
set_option backward.isDefEq.respectTransparency.types false in
/-- Region 0 over the thread state: entered from every unscoped buffer at `W1`, left at `W2`. Its arrays are
    split out of the unscoped buffers and put back at the exit contents; the generator register goes into the region
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `W5`, left at `W6`. Its arrays are
    split out of the unscoped buffers and put back at the exit contents; the generator register goes into the region
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the attention kernel's exit each of its arrays holds what the pipeline leaves — the shared input array what it
    held at entry, the output array its write-backs — and every other buffer what it held at entry. -/
theorem hF1 (c : Dev nD) : ∀ w : Fin cfg1.W, (dat1 (V3 m ρ) c).arrAt w cfg1.N = V4 m ρ c (Pipeline.arrRef spec1 w)
  | ⟨0, _⟩ => (((dat1 (V3 m ρ) c).arrAt_in 0 rfl _).trans (A_eq1 (V3 m ρ) c 0)).trans (W4_of_ne m ρ c main_v4 (by decide)).symm
  | ⟨1, _⟩ => (((dat1 (V3 m ρ) c).arrAt_in 1 rfl _).trans (A_eq1 (V3 m ρ) c 1)).trans (W4_of_ne m ρ c main_v4 (by decide)).symm
  | ⟨2, _⟩ => (((dat1 (V3 m ρ) c).arrAt_in 2 rfl _).trans (A_eq1 (V3 m ρ) c 2)).trans (W4_of_ne m ρ c main_v4 (by decide)).symm
  | ⟨3, _⟩ => (W4_out m ρ c).symm
theorem hrest1 (c : Dev nD) : ∀ b, b ∉ Finset.univ.image (Pipeline.arrRef spec1) → V4 m ρ c b = V3 m ρ c b :=
  fun b hb => W4_of_ne m ρ c b fun e => hb (Finset.mem_image.mpr ⟨3, Finset.mem_univ _, e.symm⟩)

set_option backward.isDefEq.respectTransparency.types false in
/-- Region 1 over the thread state: entered from every unscoped buffer at `W3`, left at `W4`. The buffer behind its
    three input windows is dealt among them at entry and gathered at exit (the shares of `q1`). -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (StableHlo.held (c : Thread nD τ) (Pipeline.ucRefs τ sig) (W3 m ρ c) : sProp 𝕄)
        ⊢ iprop((pdats m ρ 1 c).arrays ((pdats m ρ 1 c).arrAt · 0)
            ∗ Pipeline.unscopedRest (Ix := Unit) (Name := ℕ) (U := UR sig nD τ) (Lvl := ℕ) spec1 c (V3 m ρ c)) := by
      rw [← Pipeline.unscopedBufs_held c (W3 m ρ c),
        Pipeline.unscopedBufs_split₀ (Pipeline.pin (pcfgs (F := F)) adm) 1 winFacts₀1.arr_unscoped c (V3 m ρ c)]
      exact sep_mono (arrays1_split c (V3 m ρ c) (pdats m ρ 1 c) rfl _ (fun _ => rfl)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V3 m ρ c))
        ⊢ (StableHlo.held (c : Thread nD τ) (Pipeline.ucRefs τ sig) (W4 m ρ c) : sProp 𝕄) := by
      rw [← Pipeline.unscopedBufs_held c (W4 m ρ c),
        Pipeline.unscopedBufs_split₀ (Pipeline.pin (pcfgs (F := F)) adm) 1 winFacts₀1.arr_unscoped c (V4 m ρ c)]
      refine sep_mono (arrays1_join c (V4 m ρ c) (pdats m ρ 1 c) rfl _ (hF1 m ρ c)) (Entails.of_eq ?_)
      unfold Pipeline.unscopedRest
      exact bigSep_congr fun b hb => by rw [hrest1 m ρ c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state holds every buffer that outlives the kernels at
    the fold's last contents `W7`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Hand

end
-- ==== Proof.KB.Args.lean ====
/-
  No segment of @main writes an argument array: each host stretch writes only its own results, each kernel changes
  only its output array. So the fold of buffer contents, read at an argument, walks back to the launch memory.
-/
import proofs.«130550_j23562190586362_2_alg».proof.Proof.KB.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A host stretch leaves a buffer it does not write as it was. -/
theorem after_keep (ops : List (HloOp τ sig (Elt F))) (W : Valuation τ sig (Elt F)) (b : Ref sig .tc)
    (h : ops.Forall fun op => Proc.devRef .tc b ∉ op.writes) :
    StableHlo.after ops W (Proc.devRef .tc b) = W (Proc.devRef .tc b) :=
  StableHlo.after_of_forall_not_mem (b := Proc.devRef .tc b) _ _ (List.forall_iff_forall_mem.mp h)

/-- None of the four host stretches writes the buffer `b`, for `b` none of their results. -/
theorem keep0 (b : Ref sig .tc) (h0 : b ≠ main_v0) (h1 : b ≠ main_v1) (h2 : b ≠ main_v2) :
    (hostOps0 : List (HloOp τ sig (Elt F))).Forall fun op => Proc.devRef .tc b ∉ op.writes := by
  simp only [hostOps0, List.Forall, StableHlo.unary_writes, StableHlo.reshape_writes, Finset.mem_singleton]
  exact ⟨StableHlo.devRef_ne_of_ne h0, StableHlo.devRef_ne_of_ne h1, StableHlo.devRef_ne_of_ne h2⟩
theorem keep1 (b : Ref sig .tc) (h : b ≠ main_v4) :
    (hostOps1 : List (HloOp τ sig (Elt F))).Forall fun op => Proc.devRef .tc b ∉ op.writes := by
  simp only [hostOps1, List.Forall, StableHlo.unary_writes, StableHlo.reshape_writes, Finset.mem_singleton]
  exact StableHlo.devRef_ne_of_ne h
theorem keep2 (b : Ref sig .tc) (h6 : b ≠ main_v6) (h7 : b ≠ main_v7) :
    (hostOps2 : List (HloOp τ sig (Elt F))).Forall fun op => Proc.devRef .tc b ∉ op.writes := by
  simp only [hostOps2, List.Forall, StableHlo.unary_writes, StableHlo.reshape_writes, Finset.mem_singleton]
  exact ⟨StableHlo.devRef_ne_of_ne h6, StableHlo.devRef_ne_of_ne h7⟩
theorem keep3 (b : Ref sig .tc) (h : b ≠ main_v9) :
    (hostOps3 : List (HloOp τ sig (Elt F))).Forall fun op => Proc.devRef .tc b ∉ op.writes := by
  simp only [hostOps3, List.Forall, StableHlo.unary_writes, StableHlo.reshape_writes, Finset.mem_singleton]
  exact StableHlo.devRef_ne_of_ne h

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := after_keep _ _ main_arg0 (keep3 main_arg0 (by decide))
    _ = W5 m ρ c (Proc.devRef .tc main_arg0) := W6_of_ne m ρ c main_arg0 (by decide)
    _ = W4 m ρ c (Proc.devRef .tc main_arg0) := after_keep _ _ main_arg0 (keep2 main_arg0 (by decide) (by decide))
    _ = W3 m ρ c (Proc.devRef .tc main_arg0) := W4_of_ne m ρ c main_arg0 (by decide)
    _ = W2 m ρ c (Proc.devRef .tc main_arg0) := after_keep _ _ main_arg0 (keep1 main_arg0 (by decide))
    _ = W1 m ρ c (Proc.devRef .tc main_arg0) := W2_of_ne m ρ c main_arg0 (by decide)
    _ = W0 m ρ c (Proc.devRef .tc main_arg0) := after_keep _ _ main_arg0 (keep0 main_arg0 (by decide) (by decide) (by decide))
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := after_keep _ _ main_arg1 (keep3 main_arg1 (by decide))
    _ = W5 m ρ c (Proc.devRef .tc main_arg1) := W6_of_ne m ρ c main_arg1 (by decide)
    _ = W4 m ρ c (Proc.devRef .tc main_arg1) := after_keep _ _ main_arg1 (keep2 main_arg1 (by decide) (by decide))
    _ = W3 m ρ c (Proc.devRef .tc main_arg1) := W4_of_ne m ρ c main_arg1 (by decide)
    _ = W2 m ρ c (Proc.devRef .tc main_arg1) := after_keep _ _ main_arg1 (keep1 main_arg1 (by decide))
    _ = W1 m ρ c (Proc.devRef .tc main_arg1) := W2_of_ne m ρ c main_arg1 (by decide)
    _ = W0 m ρ c (Proc.devRef .tc main_arg1) := after_keep _ _ main_arg1 (keep0 main_arg1 (by decide) (by decide) (by decide))
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := after_keep _ _ main_arg2 (keep3 main_arg2 (by decide))
    _ = W5 m ρ c (Proc.devRef .tc main_arg2) := W6_of_ne m ρ c main_arg2 (by decide)
    _ = W4 m ρ c (Proc.devRef .tc main_arg2) := after_keep _ _ main_arg2 (keep2 main_arg2 (by decide) (by decide))
    _ = W3 m ρ c (Proc.devRef .tc main_arg2) := W4_of_ne m ρ c main_arg2 (by decide)
    _ = W2 m ρ c (Proc.devRef .tc main_arg2) := after_keep _ _ main_arg2 (keep1 main_arg2 (by decide))
    _ = W1 m ρ c (Proc.devRef .tc main_arg2) := W2_of_ne m ρ c main_arg2 (by decide)
    _ = W0 m ρ c (Proc.devRef .tc main_arg2) := after_keep _ _ main_arg2 (keep0 main_arg2 (by decide) (by decide) (by decide))
    _ = m ((c : Thread nD τ).loc main_arg2) := rfl
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := after_keep _ _ main_arg3 (keep3 main_arg3 (by decide))
    _ = W5 m ρ c (Proc.devRef .tc main_arg3) := W6_of_ne m ρ c main_arg3 (by decide)
    _ = W4 m ρ c (Proc.devRef .tc main_arg3) := after_keep _ _ main_arg3 (keep2 main_arg3 (by decide) (by decide))
    _ = W3 m ρ c (Proc.devRef .tc main_arg3) := W4_of_ne m ρ c main_arg3 (by decide)
    _ = W2 m ρ c (Proc.devRef .tc main_arg3) := after_keep _ _ main_arg3 (keep1 main_arg3 (by decide))
    _ = W1 m ρ c (Proc.devRef .tc main_arg3) := W2_of_ne m ρ c main_arg3 (by decide)
    _ = W0 m ρ c (Proc.devRef .tc main_arg3) := after_keep _ _ main_arg3 (keep0 main_arg3 (by decide) (by decide) (by decide))
    _ = m ((c : Thread nD τ).loc main_arg3) := rfl

end Cert.Kernel.Hand

end
-- ==== Proof.KernelValue.Stages.lean ====
/-
  The buffers the value of the result depends on, read at each boundary between the program's seven segments: a host
  stretch's result buffer holds its operation applied to what the stretch found, a kernel's output array holds what
  its write-backs leave, and every other buffer is carried along unchanged. Stated at any float instance.
-/
import proofs.«130550_j23562190586362_2_alg».proof.Proof.KI.Run
import Idealize.ShloMosaic.Lib.StableHlo.Run
import Idealize.ShloMosaic.Lib.ValueIdx

noncomputable section

namespace Cert.KernelIdeal.Hand.Stage

open Idealize.ShloMosaic Idealize.ShloMosaic.TcCoe Idealize.ShloMosaic.ValueIdx
open Idealize.SL Idealize.SL.Sem
open Cert.KernelIdeal Cert.KernelIdeal.Gen

open Cert.KernelIdeal.Hand

variable {F : FTy → Type} [FloatOps F]
variable (m : (ℓ : Loc nD τ sig) → Buf (Elt F) ℓ) (ρ : Dev nD → PrngReg) (c : Dev nD)

/-! ## The first host stretch: x flattened, the two weight matrices narrowed -/

/-- The flattened input: x as [8192, 1024]. -/
theorem s1_v0 : (W1 m ρ c (Proc.devRef .tc main_v0) : S8192x1024.Idx → Elt F .f32)
    = shapeCast _ (m ((c : Thread nD τ).loc main_arg0) : S8x1024x1024.Idx → Elt F .f32) shapeCasts_S8x1024x1024_S8192x1024 := by
  show StableHlo.after hostOps0 (W0 m ρ c) (Proc.devRef .tc main_v0) = _
  after_results <;> rfl

/-- The joint projection's weights, narrowed. -/
theorem s1_v1 : (W1 m ρ c (Proc.devRef .tc main_v1) : S3072x1024.Idx → Elt F .bf16)
    = truncf .bf16 (m ((c : Thread nD τ).loc main_arg1) : S3072x1024.Idx → Elt F .f32) bitsLt_bf16_f32 := by
  show StableHlo.after hostOps0 (W0 m ρ c) (Proc.devRef .tc main_v1) = _
  after_results <;> rfl

/-- The output projection's weights, narrowed. -/
theorem s1_v2 : (W1 m ρ c (Proc.devRef .tc main_v2) : S1024x1024.Idx → Elt F .bf16)
    = truncf .bf16 (m ((c : Thread nD τ).loc main_arg2) : S1024x1024.Idx → Elt F .f32) bitsLt_bf16_f32 := by
  show StableHlo.after hostOps0 (W0 m ρ c) (Proc.devRef .tc main_v2) = _
  after_results <;> rfl

/-- The bias is not written by the first host stretch. -/
theorem s1_arg3 : W1 m ρ c (Proc.devRef .tc main_arg3) = m ((c : Thread nD τ).loc main_arg3) := by
  show StableHlo.after hostOps0 (W0 m ρ c) (Proc.devRef .tc main_arg3) = _
  after_results <;> rfl

/-! ## The first kernel -/

/-- Its output array holds what its write-backs leave. -/
theorem s2_v3 : W2 m ρ c (Proc.devRef .tc main_v3) = (dat0 (V1 m ρ) c).arrAt 2 cfg0.N := W2_arr m ρ c 2
/-- It leaves the narrowed output weights alone … -/
theorem s2_v2 : W2 m ρ c (Proc.devRef .tc main_v2) = W1 m ρ c (Proc.devRef .tc main_v2) := W2_of_ne m ρ c main_v2 (by decide)
/-- … and the bias. -/
theorem s2_arg3 : W2 m ρ c (Proc.devRef .tc main_arg3) = W1 m ρ c (Proc.devRef .tc main_arg3) := W2_of_ne m ρ c main_arg3 (by decide)

/-! ## The reshape of the joint projection -/

/-- The joint projection as [8, 1024, 3072]. -/
theorem s3_v4 : (W3 m ρ c (Proc.devRef .tc main_v4) : S8x1024x3072.Idx → Elt F .bf16)
    = shapeCast _ (W2 m ρ c (Proc.devRef .tc main_v3) : S8192x3072.Idx → Elt F .bf16) shapeCasts_S8192x3072_S8x1024x3072 := by
  show StableHlo.after hostOps1 (W2 m ρ c) (Proc.devRef .tc main_v4) = _
  after_results <;> rfl

/-- The reshape leaves the narrowed output weights alone … -/
theorem s3_v2 : W3 m ρ c (Proc.devRef .tc main_v2) = W2 m ρ c (Proc.devRef .tc main_v2) := by
  show StableHlo.after hostOps1 (W2 m ρ c) (Proc.devRef .tc main_v2) = _
  after_results <;> rfl

/-- … and the bias. -/
theorem s3_arg3 : W3 m ρ c (Proc.devRef .tc main_arg3) = W2 m ρ c (Proc.devRef .tc main_arg3) := by
  show StableHlo.after hostOps1 (W2 m ρ c) (Proc.devRef .tc main_arg3) = _
  after_results <;> rfl

/-! ## The attention kernel -/

/-- Its output array holds what its write-backs leave. -/
theorem s4_v5 : W4 m ρ c (Proc.devRef .tc main_v5) = (dat1 (V3 m ρ) c).arrAt 3 cfg1.N := W4_out m ρ c
theorem s4_v2 : W4 m ρ c (Proc.devRef .tc main_v2) = W3 m ρ c (Proc.devRef .tc main_v2) := W4_of_ne m ρ c main_v2 (by decide)
theorem s4_arg3 : W4 m ρ c (Proc.devRef .tc main_arg3) = W3 m ρ c (Proc.devRef .tc main_arg3) := W4_of_ne m ρ c main_arg3 (by decide)

/-! ## The two reshapes before the last kernel -/

/-- The attention output as [8192, 1024]. -/
theorem s5_v6 : (W5 m ρ c (Proc.devRef .tc main_v6) : S8192x1024.Idx → Elt F .bf16)
    = shapeCast _ (W4 m ρ c (Proc.devRef .tc main_v5) : S8x1024x1024.Idx → Elt F .bf16) shapeCasts_S8x1024x1024_S8192x1024 := by
  show StableHlo.after hostOps2 (W4 m ρ c) (Proc.devRef .tc main_v6) = _
  after_results <;> rfl

/-- The bias as a [1, 1024] row, of what the stretch found. -/
theorem s5_v7 : (W5 m ρ c (Proc.devRef .tc main_v7) : S1x1024.Idx → Elt F .f32)
    = shapeCast _ (W4 m ρ c (Proc.devRef .tc main_arg3) : S1024.Idx → Elt F .f32) shapeCasts_S1024_S1x1024 := by
  show StableHlo.after hostOps2 (W4 m ρ c) (Proc.devRef .tc main_v7) = _
  after_results <;> rfl

/-- The two reshapes leave the narrowed output weights alone. -/
theorem s5_v2 : W5 m ρ c (Proc.devRef .tc main_v2) = W4 m ρ c (Proc.devRef .tc main_v2) := by
  show StableHlo.after hostOps2 (W4 m ρ c) (Proc.devRef .tc main_v2) = _
  after_results <;> rfl

/-- The bias row is the launch bias: nothing before it writes the bias. -/
theorem bias_row : (W5 m ρ c (Proc.devRef .tc main_v7) : S1x1024.Idx → Elt F .f32)
    = shapeCast _ (m ((c : Thread nD τ).loc main_arg3) : S1024.Idx → Elt F .f32) shapeCasts_S1024_S1x1024 := by
  rw [s5_v7, s4_arg3, s3_arg3, s2_arg3, s1_arg3]

/-- The output weights the last kernel reads are the launch weights, narrowed: nothing after the first stretch writes them. -/
theorem wp_kept : (W5 m ρ c (Proc.devRef .tc main_v2) : S1024x1024.Idx → Elt F .bf16)
    = truncf .bf16 (m ((c : Thread nD τ).loc main_arg2) : S1024x1024.Idx → Elt F .f32) bitsLt_bf16_f32 := by
  rw [s5_v2, s4_v2, s3_v2, s2_v2, s1_v2]

/-! ## The last kernel and the final reshape -/

/-- Its output array holds what its write-backs leave. -/
theorem s6_v8 : W6 m ρ c (Proc.devRef .tc main_v8) = (dat2 (V5 m ρ) c).arrAt 3 cfg2.N := W6_arr m ρ c 3

/-- The result as [8, 1024, 1024]. -/
theorem s7_v9 : (W7 m ρ c (Proc.devRef .tc main_v9) : S8x1024x1024.Idx → Elt F .f32)
    = shapeCast _ (W6 m ρ c (Proc.devRef .tc main_v8) : S8192x1024.Idx → Elt F .f32) shapeCasts_S8192x1024_S8x1024x1024 := by
  show StableHlo.after hostOps3 (W6 m ρ c) (Proc.devRef .tc main_v9) = _
  after_results <;> rfl

end Cert.KernelIdeal.Hand.Stage

end
-- ==== Proof.Spec.lean ====
/-
  The mathematics both programs compute, on the extended reals, in coordinates.

  One attention layer over x : [8, 1024, 1024] (batch b, position n, channel c):
    * the joint projection  qkv b n o = Σ_c x(b,n,c) · w(o,c)  for o < 3072; channel o = s·1024 + h·64 + d is lane d of
      head h of the query (s = 0), key (s = 1) or value (s = 2);
    * per batch and head the score  s(n,m) = (Σ_d q(n,d) · k(m,d)) · 1/8,  its row-wise softmax taken as
      exp(s − max_m s) divided by the row's sum of those exponentials, and the weighted values Σ_m p(n,m) · v(m,d);
    * the output projection  Σ_c a(b,n,c) · wp(o,c) + bias(o)  of the heads laid side by side, c = h·64 + d.
  Nothing here mentions a tiling, a layout or a number format.
-/
import Idealize.ShloMosaic.PureOps.Ideal
import Idealize.ShloMosaic.Lib.ValueIdx

noncomputable section

namespace Cert.Attn

open Idealize.ShloMosaic Idealize.ShloMosaic.ValueIdx
open scoped BigOperators

/-- The scale 1/8 = 1/√64, as the word both programs print. -/
abbrev eighth : EReal := Ideal.ofBits .f32 0x3E000000#32
/-- −∞, the word both row maxima start from. -/
abbrev negInf : EReal := Ideal.ofBits .f32 0xFF800000#32

/-- Channel of lane `d` of head `h` in section `s` (0 query, 1 key, 2 value) of the joint projection. -/
def chan (s : Fin 3) (h : Fin 16) (d : Fin 64) : Fin 3072 := ⟨s.val * 1024 + h.val * 64 + d.val, by omega⟩

/-- A product with the second factor transposed: entry (p, c) of A·Bᵀ. -/
def mmT {M K N : Nat} (A : (⟨2, ![M, K]⟩ : Shape).Idx → EReal) (B : (⟨2, ![N, K]⟩ : Shape).Idx → EReal)
    (p : Fin M) (c : Fin N) : EReal := ∑ k : Fin K, A (ix2 p k) * B (ix2 c k)

/-- The joint projection of position (b, n) onto channel o. -/
def qkv (x : (⟨3, ![8, 1024, 1024]⟩ : Shape).Idx → EReal) (w : (⟨2, ![3072, 1024]⟩ : Shape).Idx → EReal)
    (b : Fin 8) (n : Fin 1024) (o : Fin 3072) : EReal := ∑ c : Fin 1024, x (ix3 b n c) * w (ix2 o c)

/-- The scaled score of query position n against key position m, batch b, head h. -/
def score (Q : Fin 8 → Fin 1024 → Fin 3072 → EReal) (b : Fin 8) (h : Fin 16) (n m : Fin 1024) : EReal :=
  (∑ d : Fin 64, Q b n (chan 0 h d) * Q b m (chan 1 h d)) * eighth

/-- A row's maximum, from −∞. -/
def rowMax (s : Fin 1024 → EReal) : EReal := (Finset.univ : Finset (Fin 1024)).fold max negInf s
/-- The shifted exponential of entry m of a row. -/
def expo (s : Fin 1024 → EReal) (m : Fin 1024) : EReal := Ideal.exp (s m - rowMax s)
/-- The softmax weight of entry m of a row. -/
def prob (s : Fin 1024 → EReal) (m : Fin 1024) : EReal := Ideal.div (expo s m) (∑ m' : Fin 1024, expo s m')

/-- The attention output of batch b, position n, head h, lane d. -/
def attn (Q : Fin 8 → Fin 1024 → Fin 3072 → EReal) (b : Fin 8) (n : Fin 1024) (h : Fin 16) (d : Fin 64) : EReal :=
  ∑ m : Fin 1024, prob (score Q b h n) m * Q b m (chan 2 h d)

/-- Head and lane of an output channel c = h·64 + d. -/
def headOf (c : Fin 1024) : Fin 16 := ⟨c.val / 64, by omega⟩
def laneOf (c : Fin 1024) : Fin 64 := ⟨c.val % 64, Nat.mod_lt _ (by decide)⟩

/-- The whole layer at (b, n, o). -/
def out (x : (⟨3, ![8, 1024, 1024]⟩ : Shape).Idx → EReal) (w : (⟨2, ![3072, 1024]⟩ : Shape).Idx → EReal)
    (wp : (⟨2, ![1024, 1024]⟩ : Shape).Idx → EReal) (bias : (⟨1, ![1024]⟩ : Shape).Idx → EReal)
    (b : Fin 8) (n : Fin 1024) (o : Fin 1024) : EReal :=
  (∑ c : Fin 1024, attn (qkv x w) b n (headOf c) (laneOf c) * wp (ix2 o c)) + bias (ix1 o)

/-- The layer as an array over [8, 1024, 1024]. -/
def outArr (x : (⟨3, ![8, 1024, 1024]⟩ : Shape).Idx → EReal) (w : (⟨2, ![3072, 1024]⟩ : Shape).Idx → EReal)
    (wp : (⟨2, ![1024, 1024]⟩ : Shape).Idx → EReal) (bias : (⟨1, ![1024]⟩ : Shape).Idx → EReal) :
    (⟨3, ![8, 1024, 1024]⟩ : Shape).Idx → EReal := fun i => out x w wp bias (i 0) (i 1) (i 2)

/-! ## The same, one block at a time: what one grid point of the attention kernel computes

A block holds two heads side by side: lanes 0–63 the first, 64–127 the second. -/

/-- Lane l's half (0 or 1) and its offset 64·half. -/
def halfOff (l : Fin 128) : Nat := 64 * (l.val / 64)

/-- The scaled score inside a block, for the half lane `l` lies in. -/
def blockScore (q k : (⟨3, ![1, 1024, 128]⟩ : Shape).Idx → EReal) (l : Fin 128) (n m : Fin 1024) : EReal :=
  (∑ d : Fin 64, q (ix3 0 n ⟨halfOff l + d.val, by unfold halfOff; omega⟩) * k (ix3 0 m ⟨halfOff l + d.val, by unfold halfOff; omega⟩)) * eighth

/-- One block of attention output at row n, lane l: the softmax-weighted values of lane l. -/
def blockAttn (q k v : (⟨3, ![1, 1024, 128]⟩ : Shape).Idx → EReal) (n : Fin 1024) (l : Fin 128) : EReal :=
  ∑ m : Fin 1024, prob (blockScore q k l n) m * v (ix3 0 m l)

end Cert.Attn

end
-- ==== Proof.Compose.lean ====
/-
  The three stages put together, on the extended reals.

  The layer is computed in three stages over flattened arrays: the joint projection of the rows r = b·1024 + n of x, the
  attention of each batch and head over the joint projection read as [8, 1024, 3072], and the output projection (with the
  bias row) of the rows of the attention output. Substituting each stage into the next gives the layer of the
  specification entry by entry: only the names of the rows change, no law of arithmetic is used.

  The attention of one batch b and one pair g of heads reads lanes [128·g, 128·g + 128) of the query, key and value
  sections. Lane l of the pair lies in head 2·g + l / 64 at lane l % 64, so channel s·1024 + 128·g + 64·(l/64) + d of the
  joint projection is lane d of that head in section s, and the block's score row and weighted values are the head's.
-/
import proofs.«130550_j23562190586362_2_alg».proof.Proof.Spec

noncomputable section

namespace Cert.Attn

open Idealize.ShloMosaic Idealize.ShloMosaic.ValueIdx
open scoped BigOperators

/-- what the first kernel leaves: rows r = b·1024+n of the joint projection, from x flattened to [8192,1024] -/
def R0 (X : (⟨2, ![8192, 1024]⟩ : Shape).Idx → EReal) (W : (⟨2, ![3072, 1024]⟩ : Shape).Idx → EReal) :
    (⟨2, ![8192, 3072]⟩ : Shape).Idx → EReal := fun i => mmT X W (i 0) (i 1)
/-- what the attention kernel leaves, from the joint projection as [8,1024,3072] -/
def R1 (Z : (⟨3, ![8, 1024, 3072]⟩ : Shape).Idx → EReal) : (⟨3, ![8, 1024, 1024]⟩ : Shape).Idx → EReal :=
  fun i => attn (fun b n o => Z (ValueIdx.ix3 b n o)) (i 0) (i 1) (headOf (i 2)) (laneOf (i 2))
/-- what the last kernel leaves -/
def R2 (A : (⟨2, ![8192, 1024]⟩ : Shape).Idx → EReal) (W : (⟨2, ![1024, 1024]⟩ : Shape).Idx → EReal)
    (B : (⟨2, ![1, 1024]⟩ : Shape).Idx → EReal) : (⟨2, ![8192, 1024]⟩ : Shape).Idx → EReal :=
  fun i => mmT A W (i 0) (i 1) + B (ValueIdx.ix2 (0 : Fin 1) (i 1))
/-- row r = b·1024 + n of a flattened [8,1024,·] array -/
def rowOf (b : Fin 8) (n : Fin 1024) : Fin 8192 := ⟨b.val * 1024 + n.val, by omega⟩

/-- The first stage read at row (b, n) is the joint projection of the specification. -/
theorem R0_row (x : (⟨3, ![8, 1024, 1024]⟩ : Shape).Idx → EReal) (w : (⟨2, ![3072, 1024]⟩ : Shape).Idx → EReal)
    (X0 : (⟨2, ![8192, 1024]⟩ : Shape).Idx → EReal)
    (hX0 : ∀ b n c, X0 (ValueIdx.ix2 (rowOf b n) c) = x (ValueIdx.ix3 b n c))
    (b : Fin 8) (n : Fin 1024) (o : Fin 3072) :
    R0 X0 w (ValueIdx.ix2 (rowOf b n) o) = qkv x w b n o := by
  show mmT X0 w (rowOf b n) o = qkv x w b n o
  unfold mmT qkv
  exact Finset.sum_congr rfl fun c _ => by rw [hX0]

theorem layer_eq (x : (⟨3, ![8, 1024, 1024]⟩ : Shape).Idx → EReal) (w : (⟨2, ![3072, 1024]⟩ : Shape).Idx → EReal)
    (wp : (⟨2, ![1024, 1024]⟩ : Shape).Idx → EReal) (bias : (⟨1, ![1024]⟩ : Shape).Idx → EReal)
    (X0 : (⟨2, ![8192, 1024]⟩ : Shape).Idx → EReal)
    (hX0 : ∀ b n c, X0 (ValueIdx.ix2 (rowOf b n) c) = x (ValueIdx.ix3 b n c))
    (Z : (⟨3, ![8, 1024, 3072]⟩ : Shape).Idx → EReal)
    (hZ : ∀ b n o, Z (ValueIdx.ix3 b n o) = R0 X0 w (ValueIdx.ix2 (rowOf b n) o))
    (A : (⟨2, ![8192, 1024]⟩ : Shape).Idx → EReal)
    (hA : ∀ b n c, A (ValueIdx.ix2 (rowOf b n) c) = R1 Z (ValueIdx.ix3 b n c))
    (B : (⟨2, ![1, 1024]⟩ : Shape).Idx → EReal) (hB : ∀ o, B (ValueIdx.ix2 (0 : Fin 1) o) = bias (ValueIdx.ix1 o))
    (Y : (⟨3, ![8, 1024, 1024]⟩ : Shape).Idx → EReal)
    (hY : ∀ b n o, Y (ValueIdx.ix3 b n o) = R2 A wp B (ValueIdx.ix2 (rowOf b n) o)) :
    Y = outArr x w wp bias := by
  have hQ : (fun (b : Fin 8) (n : Fin 1024) (o : Fin 3072) => Z (ValueIdx.ix3 b n o)) = qkv x w := by
    funext b n o
    exact (hZ b n o).trans (R0_row x w X0 hX0 b n o)
  funext i
  obtain ⟨b, n, o, rfl⟩ : ∃ (b : Fin 8) (n : Fin 1024) (o : Fin 1024), i = ix3 b n o := ⟨i 0, i 1, i 2, eq_ix3 i⟩
  rw [hY]
  show mmT A wp (rowOf b n) o + B (ValueIdx.ix2 (0 : Fin 1) o) = out x w wp bias b n o
  rw [hB]
  unfold out mmT
  refine congrArg (· + bias (ValueIdx.ix1 o)) ?_
  refine Finset.sum_congr rfl fun c _ => ?_
  rw [hA]
  show attn (fun b n o => Z (ValueIdx.ix3 b n o)) b n (headOf c) (laneOf c) * wp (ix2 o c) = _
  rw [hQ]

theorem blockAttn_eq (Z : (⟨3, ![8, 1024, 3072]⟩ : Shape).Idx → EReal) (b : Fin 8) (g : Fin 8)
    (q k v : (⟨3, ![1, 1024, 128]⟩ : Shape).Idx → EReal)
    (hq : ∀ n (l : Fin 128), q (ValueIdx.ix3 (0 : Fin 1) n l) = Z (ValueIdx.ix3 b n ⟨128 * g.val + l.val, by omega⟩))
    (hk : ∀ n (l : Fin 128), k (ValueIdx.ix3 (0 : Fin 1) n l) = Z (ValueIdx.ix3 b n ⟨1024 + 128 * g.val + l.val, by omega⟩))
    (hv : ∀ n (l : Fin 128), v (ValueIdx.ix3 (0 : Fin 1) n l) = Z (ValueIdx.ix3 b n ⟨2048 + 128 * g.val + l.val, by omega⟩))
    (n : Fin 1024) (l : Fin 128) :
    blockAttn q k v n l = R1 Z (ValueIdx.ix3 b n ⟨128 * g.val + l.val, by omega⟩) := by
  have hs : blockScore q k l n
      = score (fun b n o => Z (ValueIdx.ix3 b n o)) b (headOf ⟨128 * g.val + l.val, by omega⟩) n := by
    funext m
    unfold blockScore score
    refine congrArg (· * eighth) ?_
    refine Finset.sum_congr rfl fun d _ => ?_
    rw [hq, hk]
    refine congrArg₂ (· * ·) (congrArg (fun o => Z (ValueIdx.ix3 b n o)) (Fin.ext ?_))
      (congrArg (fun o => Z (ValueIdx.ix3 b m o)) (Fin.ext ?_))
    · simp only [chan, headOf, halfOff]; omega
    · simp only [chan, headOf, halfOff]; omega
  show (∑ m : Fin 1024, prob (blockScore q k l n) m * v (ix3 0 m l))
      = attn (fun b n o => Z (ValueIdx.ix3 b n o)) b n (headOf ⟨128 * g.val + l.val, by omega⟩)
          (laneOf ⟨128 * g.val + l.val, by omega⟩)
  unfold attn
  rw [hs]
  refine Finset.sum_congr rfl fun m _ => ?_
  rw [hv]
  refine congrArg (prob _ m * ·) ?_
  refine congrArg (fun o => Z (ValueIdx.ix3 b m o)) (Fin.ext ?_)
  simp only [chan, headOf, laneOf]; omega

end Cert.Attn

end
-- ==== Proof.KernelValue.Casts.lean ====
/-
  Two changes of shape read at coordinates: rows (b, n) of an [8, 1024, K] array merged into rows b·1024 + n of an
  [8192, K] array, and the same split back. Row-major positions agree, so each reads the same element.
-/
import Idealize.ShloMosaic.Lib.Pipeline.Value
import Idealize.ShloMosaic.Lib.ValueIdx
import Idealize.ShloMosaic.Lib.ValueLayout
import proofs.«130550_j23562190586362_2_alg».proof.Proof.Compose

noncomputable section

namespace Cert.KernelIdeal.Hand.Stage

open Idealize.ShloMosaic Idealize.ShloMosaic.ValueIdx

variable {α : Type}

/-- [8, 1024, 1024] merged to [8192, 1024], read at row b·1024 + n. -/
theorem merge1024_apply (y : (⟨3, ![8, 1024, 1024]⟩ : Shape).Idx → α)
    (h : (⟨3, ![8, 1024, 1024]⟩ : Shape).ShapeCasts ⟨2, ![8192, 1024]⟩) (b : Fin 8) (n : Fin 1024) (c : Fin 1024) :
    shapeCast (⟨2, ![8192, 1024]⟩ : Shape) y h (ix2 (Cert.Attn.rowOf b n) c) = y (ix3 b n c) :=
  shapeCast_apply y h _ _ (by
    rw [Shape.rowMajor_val_three, Shape.rowMajor_val_two]
    show (b.val * 1024 + n.val) * 1024 + c.val = (b.val * 1024 + n.val) * 1024 + c.val
    rfl)

/-- [8192, 3072] split to [8, 1024, 3072], read at (b, n, o). -/
theorem split3072_apply (y : (⟨2, ![8192, 3072]⟩ : Shape).Idx → α)
    (h : (⟨2, ![8192, 3072]⟩ : Shape).ShapeCasts ⟨3, ![8, 1024, 3072]⟩) (b : Fin 8) (n : Fin 1024) (o : Fin 3072) :
    shapeCast (⟨3, ![8, 1024, 3072]⟩ : Shape) y h (ix3 b n o) = y (ix2 (Cert.Attn.rowOf b n) o) :=
  shapeCast_apply y h _ _ (by
    rw [Shape.rowMajor_val_three, Shape.rowMajor_val_two]
    show (b.val * 1024 + n.val) * 3072 + o.val = (b.val * 1024 + n.val) * 3072 + o.val
    rfl)

/-- [8192, 1024] split to [8, 1024, 1024], read at (b, n, o). -/
theorem split1024_apply (y : (⟨2, ![8192, 1024]⟩ : Shape).Idx → α)
    (h : (⟨2, ![8192, 1024]⟩ : Shape).ShapeCasts ⟨3, ![8, 1024, 1024]⟩) (b : Fin 8) (n : Fin 1024) (o : Fin 1024) :
    shapeCast (⟨3, ![8, 1024, 1024]⟩ : Shape) y h (ix3 b n o) = y (ix2 (Cert.Attn.rowOf b n) o) :=
  shapeCast_apply y h _ _ (by
    rw [Shape.rowMajor_val_three, Shape.rowMajor_val_two]
    show (b.val * 1024 + n.val) * 1024 + o.val = (b.val * 1024 + n.val) * 1024 + o.val
    rfl)

end Cert.KernelIdeal.Hand.Stage

end
-- ==== Proof.KernelValue.lean ====
/-
  The kernel program's result on the extended reals, given what each of its three kernels leaves in its output array:
  the first the joint projection of the flattened input, the second the attention of the joint projection read as
  [8, 1024, 3072], the third the output projection plus the bias row. The host lines between them only rename rows
  (b, n) as b·1024 + n and back, and narrow the two weight matrices, which changes nothing on the extended reals; so
  the three stages compose to the layer of the specification.
-/
import proofs.«130550_j23562190586362_2_alg».proof.Proof.KernelValue.Stages
import proofs.«130550_j23562190586362_2_alg».proof.Proof.KernelValue.Casts
import proofs.«130550_j23562190586362_2_alg».proof.Proof.Compose
import Idealize.ShloMosaic.Lib.ValueLayout

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

/-- The program's result array is the attention layer of its four arguments. -/
theorem result_eq (m : (ℓ : Loc nD τ sig) → Buf (Elt Ideal) ℓ) (ρ : Dev nD → PrngReg) (c : Dev nD)
    (h0 : ∀ (V : (c : Dev nD) → (b : Ref sig .tc) → Buf (Elt Ideal) ((c : Thread nD τ).loc b)) (c : Dev nD), (dat0 (F := Ideal) V c).arrAt 2 cfg0.N = Cert.Attn.R0 (V c main_v0) (V c main_v1))
    (h1 : ∀ (V : (c : Dev nD) → (b : Ref sig .tc) → Buf (Elt Ideal) ((c : Thread nD τ).loc b)) (c : Dev nD), (dat1 (F := Ideal) V c).arrAt 3 cfg1.N = Cert.Attn.R1 (V c main_v4))
    (h2 : ∀ (V : (c : Dev nD) → (b : Ref sig .tc) → Buf (Elt Ideal) ((c : Thread nD τ).loc b)) (c : Dev nD), (dat2 (F := Ideal) V c).arrAt 3 cfg2.N = Cert.Attn.R2 (V c main_v6) (V c main_v2) (V c main_v7)) :
    W7 (F := Ideal) m ρ c (Proc.devRef .tc main_v9) = Cert.Attn.outArr (m ((c : Thread nD τ).loc main_arg0)) (m ((c : Thread nD τ).loc main_arg1)) (m ((c : Thread nD τ).loc main_arg2)) (m ((c : Thread nD τ).loc main_arg3)) := by
  -- the three kernels' output arrays, over the stage arrays by name; a narrowed weight matrix is the matrix itself
  have z2 : W2 (F := Ideal) m ρ c (Proc.devRef .tc main_v3)
      = Cert.Attn.R0 (W1 (F := Ideal) m ρ c (Proc.devRef .tc main_v0)) (m ((c : Thread nD τ).loc main_arg1)) :=
    (Stage.s2_v3 m ρ c).trans ((h0 (V1 m ρ) c).trans (congrArg (Cert.Attn.R0 _) (Stage.s1_v1 m ρ c)))
  have z4 : W4 (F := Ideal) m ρ c (Proc.devRef .tc main_v5) = Cert.Attn.R1 (W3 (F := Ideal) m ρ c (Proc.devRef .tc main_v4)) :=
    (Stage.s4_v5 m ρ c).trans (h1 (V3 m ρ) c)
  have z6 : W6 (F := Ideal) m ρ c (Proc.devRef .tc main_v8)
      = Cert.Attn.R2 (W5 (F := Ideal) m ρ c (Proc.devRef .tc main_v6)) (m ((c : Thread nD τ).loc main_arg2))
          (W5 (F := Ideal) m ρ c (Proc.devRef .tc main_v7)) :=
    (Stage.s6_v8 m ρ c).trans ((h2 (V5 m ρ) c).trans (congrArg (fun u => Cert.Attn.R2 _ u _) (Stage.wp_kept m ρ c)))
  refine Cert.Attn.layer_eq _ _ _ _
    (W1 (F := Ideal) m ρ c (Proc.devRef .tc main_v0)) ?_
    (W3 (F := Ideal) m ρ c (Proc.devRef .tc main_v4)) ?_
    (W5 (F := Ideal) m ρ c (Proc.devRef .tc main_v6)) ?_
    (W5 (F := Ideal) m ρ c (Proc.devRef .tc main_v7)) ?_
    _ ?_
  · intro b n k
    rw [Stage.s1_v0]
    exact Stage.merge1024_apply _ _ b n k
  · intro b n o
    rw [Stage.s3_v4, z2]
    exact Stage.split3072_apply _ _ b n o
  · intro b n k
    rw [Stage.s5_v6, z4]
    exact Stage.merge1024_apply _ _ b n k
  · intro o
    rw [Stage.bias_row]
    exact shapeCast_a_1a_apply _ _ 0 o
  · intro b n o
    rw [Stage.s7_v9, z6]
    exact Stage.split1024_apply _ _ b n o

end Cert.KernelIdeal.Hand

end
-- ==== Proof.LibGramDot.lean ====
/-
  A matrix product with the RIGHT factor transposed, read at an entry. For the dimension numbers of `M×K` by `N×K`
  contracting the two last axes (`DotDims.transposedRhs M K N`: what `A · Bᵀ` prints as when the matrix unit consumes the
  transposed operand natively), the sum over the one-axis contraction index of any function of the two operand indices is the
  sum over `k : Fin K` of that function at `(p, k)` and `(c, k)` (`sum_transposedRhs`). Hence, on the extended reals, a
  `tpu.matmul` into the zero accumulator read at `(p, c)` is `∑ k, A (p, k) * B (c, k)` (`matmul_transposedRhs_zero_apply`),
  for every `M`, `K`, `N`; with `B = A` it is the Gram matrix of the rows of `A`.
-/
import Idealize.ShloMosaic.PureOps.Ideal.Laws
import Idealize.ShloMosaic.Lib.ValueIdx

noncomputable section

open scoped BigOperators

namespace Cert.Lib.GramDot

open Idealize.ShloMosaic Idealize.ShloMosaic.ValueIdx

variable {M K N : Nat}

/-- The left operand's index at output `(p, c)` and contraction coordinate `k` is `(p, k)`. -/
theorem lhsIdx_transposedRhs (p : Fin M) (c : Fin N) (k : Fin K) :
    (DotDims.transposedRhs M K N).lhsIdx (ix2 p c) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl (ix2 p c) _).trans hk

/-- The right operand's index at output `(p, c)` and contraction coordinate `k` is `(c, k)`. -/
theorem rhsIdx_transposedRhs (p : Fin M) (c : Fin N) (k : Fin K) :
    (DotDims.transposedRhs M K N).rhsIdx (ix2 p c) ((contrEquiv1 (DotDims.transposedRhs M K N) K rfl rfl).symm k) = ix2 c k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl (ix2 p c) _).trans hk

/-- A sum over the contraction index, of any function of the two operand indices, is the sum over the shared axis. -/
theorem sum_transposedRhs {β : Type*} [AddCommMonoid β]
    (f : (⟨2, ![M, K]⟩ : Shape).Idx → (⟨2, ![N, K]⟩ : Shape).Idx → β) (p : Fin M) (c : Fin N) :
    ∑ q : (DotDims.transposedRhs M K N).contr.Idx,
        f ((DotDims.transposedRhs M K N).lhsIdx (ix2 p c) q) ((DotDims.transposedRhs M K N).rhsIdx (ix2 p c) q)
      = ∑ k : Fin K, f (ix2 p k) (ix2 c k) := by
  rw [← Equiv.sum_comp (contrEquiv1 (DotDims.transposedRhs M K N) K rfl rfl).symm]
  refine Finset.sum_congr rfl fun k _ => ?_
  rw [lhsIdx_transposedRhs, rhsIdx_transposedRhs]

/-- On the extended reals a `tpu.matmul` of `A : M×K` and `B : N×K` contracting the last axes, into the zero accumulator,
    read at `(p, c)`, is `∑ k, A (p, k) * B (c, k)`. -/
theorem matmul_transposedRhs_zero_apply {φ₁ φ₂ : FTy} (prec : Option ContractPrecision)
    (A : FVec Ideal ⟨2, ![M, K]⟩ φ₁) (B : FVec Ideal ⟨2, ![N, K]⟩ φ₂) (p : Fin M) (c : Fin N) :
    FloatOps.matmul (DotDims.transposedRhs M K N) prec A B (constant ⟨2, ![M, N]⟩ .f32 0x00000000#32) (ix2 p c)
      = ∑ k : Fin K, A (ix2 p k) * B (ix2 c k) :=
  (Ideal.matmul_constant_zero_apply (DotDims.transposedRhs M K N) prec A B (ix2 p c)).trans
    (sum_transposedRhs (fun i j => A i * B j) p c)

end Cert.Lib.GramDot

end
-- ==== Proof.MatPay.lean ====
/-
  The two projection kernels' bodies on the extended reals, read at an entry.

  Each body is a product with the right factor transposed, A · Bᵀ, into the zero accumulator; format changes are the
  identity on extended reals and a shape cast to the same shape is the identity. The joint projection's body at (p, c) is
  Σ_k x(p,k) · w(c,k); the output projection's body adds the bias row, read at column c.
-/
import proofs.«130550_j23562190586362_2_alg».proof.Proof.Gen.KernelIdeal.Skeleton
import proofs.«130550_j23562190586362_2_alg».proof.Proof.Spec
import proofs.«130550_j23562190586362_2_alg».proof.Proof.LibGramDot
import Idealize.ShloMosaic.Lib.ValueLayout
import Idealize.ShloMosaic.Lib.Pipeline.Value

noncomputable section

namespace Cert.KernelIdeal.MatPay

open Idealize.ShloMosaic Idealize.ShloMosaic.ValueIdx
open scoped BigOperators

/-- The joint projection's dimension numbers are those of A · Bᵀ for 512×1024 by 3072×1024. -/
theorem dot_qkv_eq :
    Cert.KernelIdeal.dot_S512x1024_S3072x1024_S512x3072_1_1_0_0_n_n = DotDims.transposedRhs 512 1024 3072 := rfl

/-- The output projection's dimension numbers are those of A · Bᵀ for 512×1024 by 1024×1024. -/
theorem dot_proj_eq :
    Cert.KernelIdeal.dot_S512x1024_S1024x1024_S512x1024_1_1_0_0_n_n = DotDims.transposedRhs 512 1024 1024 := rfl

/-- The joint projection's body at (p, c) is Σ_k x(p,k) · w(c,k). -/
theorem qkv_pay_apply (x0 : Vec Ideal Cert.KernelIdeal.S512x1024 .f32) (x1 : Vec Ideal Cert.KernelIdeal.S3072x1024 .bf16)
    (p : Fin 512) (c : Fin 3072) :
    Cert.KernelIdeal.Gen.k0_pay1 (F := Ideal) x0 x1 (ValueIdx.ix2 p c) = Cert.Attn.mmT x0 x1 p c := by
  unfold Cert.KernelIdeal.Gen.k0_pay1
  simp only [shapeCast_self]
  rw [truncf_apply, dot_qkv_eq]
  exact Cert.Lib.GramDot.matmul_transposedRhs_zero_apply none _ _ p c

/-- The output projection's body at (p, c) is Σ_k a(p,k) · w(c,k) plus the bias at c. -/
theorem proj_pay_apply (x0 : Vec Ideal Cert.KernelIdeal.S512x1024 .bf16) (x1 : Vec Ideal Cert.KernelIdeal.S1024x1024 .bf16)
    (x2 : Vec Ideal Cert.KernelIdeal.S1x1024 .f32) (p : Fin 512) (c : Fin 1024) :
    Cert.KernelIdeal.Gen.k2_pay1 (F := Ideal) x0 x1 x2 (ValueIdx.ix2 p c)
      = Cert.Attn.mmT x0 x1 p c + x2 (ValueIdx.ix2 (0 : Fin 1) c) := by
  unfold Cert.KernelIdeal.Gen.k2_pay1
  simp only [shapeCast_self]
  rw [addf_apply, dot_proj_eq]
  refine congrArg₂ (· + ·) ?_ ?_
  · exact Cert.Lib.GramDot.matmul_transposedRhs_zero_apply none _ _ p c
  · exact broadcastTo_1b_ab_apply _ _ p c

end Cert.KernelIdeal.MatPay

end
-- ==== Proof.Val0.lean ====
/-
  The first kernel's result array on the extended reals: the joint projection of the flattened rows.

  Grid point t writes back rows 512·t … 512·t + 511 of the result, every column. What it writes at (p, o) is the product
  of its row block of the input with the transposed weights, Σ_k X(512·t + p, k) · W(o, k): the input window's block at t is
  rows 512·t … of X, the weight window's block is all of W at every point. The 16 row blocks tile the 8192 rows (row r lies
  in block r / 512), so the array ends holding Σ_k X(r, k) · W(o, k) at every (r, o).
-/
import proofs.«130550_j23562190586362_2_alg».proof.Proof.KI.Reg0
import proofs.«130550_j23562190586362_2_alg».proof.Proof.Compose
import proofs.«130550_j23562190586362_2_alg».proof.Proof.MatPay
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The whole-buffer rectangles start at the origin. -/
theorem origin_0 : (![0, 0] : Fin 2 → Nat) = fun _ => 0 := funext fun a => by fin_cases a <;> rfl

/-- The block indices over the grid: input and result move down the rows with the point, the weights stay at block 0. -/
theorem index_0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input block at point t, entry (p, k), is row 512·t + p of the flattened input. -/
theorem inBlock_0 (c : Dev nD) (t : Fin cfg0.N) (p : Fin 512) (k : Fin 1024) (r : Fin 8192)
    (hr : r.val = 512 * t.val + p.val) :
    (iblk0 V c 0 t : Vec Ideal S512x1024 .f32) (ix2 p k) = (V c main_v0 : S8192x1024.Idx → EReal) (ix2 r k) := by
  obtain ⟨e00, e01, -⟩ := index_0 t
  unfold iblk0
  show V c main_v0 (((cfg0.win 0).blk t).view.emb (ix2 p k)) = V c main_v0 (ix2 r k)
  refine congrArg (V c main_v0) ?_
  funext a; apply Fin.ext
  match a with
  | ⟨0, _⟩ => show win0_0.index t (0 : Fin 2) * 512 + 1 * p.val = r.val; omega
  | ⟨1, _⟩ => show win0_0.index t (1 : Fin 2) * 1024 + 1 * k.val = k.val; omega

/-- The weight block at any point is the whole weight matrix. -/
theorem wBlock_0 (c : Dev nD) (t : Fin cfg0.N) (o : Fin 3072) (k : Fin 1024) :
    (iblk0 V c 1 t : Vec Ideal S3072x1024 .bf16) (ix2 o k) = (V c main_v1 : S3072x1024.Idx → EReal) (ix2 o k) := by
  obtain ⟨-, -, e10, e11, -⟩ := index_0 t
  unfold iblk0
  show V c main_v1 (((cfg0.win 1).blk t).view.emb (ix2 o k)) = V c main_v1 (ix2 o k)
  refine congrArg (V c main_v1) ?_
  funext a; apply Fin.ext
  match a with
  | ⟨0, _⟩ => show win0_1.index t (0 : Fin 2) * 3072 + 1 * o.val = o.val; omega
  | ⟨1, _⟩ => show win0_1.index t (1 : Fin 2) * 1024 + 1 * k.val = k.val; omega

/-- Entry (p, o) of the result block at point t sits at row 512·t + p, column o of the result array. -/
theorem outPos_0 (t : Fin cfg0.N) (p : Fin 512) (o : Fin 3072) (r : Fin 8192) (hr : r.val = 512 * t.val + p.val) :
    ((cfg0.win 2).blk t).view.emb (ix2 p o) = (ix2 r o : S8192x3072.Idx) := by
  obtain ⟨-, -, -, -, e20, e21⟩ := index_0 t
  funext a; apply Fin.ext
  match a with
  | ⟨0, _⟩ => show win0_2.index t (0 : Fin 2) * 512 + 1 * p.val = r.val; omega
  | ⟨1, _⟩ => show win0_2.index t (1 : Fin 2) * 3072 + 1 * o.val = o.val; omega

/-- The body's product of a row block x0 of X (row p of the block is row r of X) with the transposed weights is
    the joint projection at (r, o). -/
theorem point_0 (X : S8192x1024.Idx → EReal) (W : S3072x1024.Idx → EReal)
    (x0 : Vec Ideal S512x1024 .f32) (x1 : Vec Ideal S3072x1024 .bf16) (p : Fin 512) (o : Fin 3072) (r : Fin 8192)
    (h0 : ∀ k : Fin 1024, x0 (ix2 p k) = X (ix2 r k)) (h1 : ∀ k : Fin 1024, x1 (ix2 o k) = W (ix2 o k)) :
    k0_pay1 (F := Ideal) x0 x1 (ix2 p o) = Cert.Attn.R0 X W (ix2 r o) := by
  rw [Cert.KernelIdeal.MatPay.qkv_pay_apply]
  show Cert.Attn.mmT x0 x1 p o = Cert.Attn.mmT X W r o
  unfold Cert.Attn.mmT
  exact Finset.sum_congr rfl fun k _ => by rw [h0, h1]

/-- What point t writes back is its block of the joint projection of the arrays the region finds. -/
theorem flushed_0 (c : Dev nD) (t : Fin cfg0.N) :
    (dat0 V c).flushed 2 t
      = ((cfg0.win 2).blk t).view.read (Elt Ideal) (Cert.Attn.R0 (V c main_v0) (V c main_v1)) := by
  show (cfg0.win 2).cut (grid0.coords t) ((dat0 V c).after 2 t) = _
  rw [after0_2]
  unfold out0_2
  rw [View.canon_unit_zero origin_0]
  simp only [View.ld_unit_zero (S := S512x1024) origin_0, View.ld_unit_zero (S := S3072x1024) origin_0]
  funext j
  obtain ⟨p, o, rfl⟩ : ∃ (p : Fin 512) (o : Fin 3072), j = ix2 p o := ⟨j 0, j 1, eq_ix2 (n0 := 512) (n1 := 3072) j⟩
  have ht : t.val < 16 := lt_of_lt_of_eq t.isLt N_0
  show k0_pay1 (F := Ideal) (iblk0 V c 0 t) (iblk0 V c 1 t) (ix2 p o)
    = Cert.Attn.R0 (V c main_v0) (V c main_v1) (((cfg0.win 2).blk t).view.emb (ix2 p o))
  rw [outPos_0 t p o ⟨512 * t.val + p.val, by omega⟩ rfl]
  exact point_0 _ _ _ _ p o _ (fun k => inBlock_0 V c t p k _ rfl) (fun k => wBlock_0 V c t o k)

/-- An index of the result array is in point t's block iff each coordinate is in the block's range on its axis. -/
theorem mem_blk_0 (t : Fin cfg0.N) (i : S8192x3072.Idx) :
    i ∈ ((cfg0.win 2).blk t).view.set
      ↔ ∀ a : Fin 2, win0_2.index t a * S512x3072.size a ≤ (i a).val
          ∧ (i a).val < win0_2.index t a * S512x3072.size a + S512x3072.size a := by
  show i ∈ ((View.whole main_v3).slice (win0_2.rect t)).set ↔ _
  rw [View.set_slice_whole, Rect.mem_set_unit]
  exact Iff.rfl

/-- Every entry of the result array is written back by some point: row r by point r / 512. -/
theorem cover_0 (i : S8192x3072.Idx) :
    ∃ t : Fin cfg0.N, (cfg0.win 2).flush t = true ∧ i ∈ ((cfg0.win 2).blk t).view.set := by
  have hi0 : (i 0).val < 8192 := (i 0).isLt
  have hi1 : (i 1).val < 3072 := (i 1).isLt
  obtain ⟨t, ht⟩ : ∃ t : Fin cfg0.N, t.val = (i 0).val / 512 :=
    ⟨⟨(i 0).val / 512, by rw [show cfg0.N = 16 from N_0]; omega⟩, rfl⟩
  obtain ⟨-, -, -, -, e20, e21⟩ := index_0 t
  refine ⟨t, flush0_2 t, ?_⟩
  rw [mem_blk_0]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 3072 ≤ (i 1).val ∧ (i 1).val < win0_2.index t (1 : Fin 2) * 3072 + 3072
    omega

/-- The result array after the run is the joint projection of the rows of the arrays the region finds. -/
theorem final0 (c : Dev nD) :
    (dat0 (F := Ideal) V c).arrAt 2 cfg0.N = Cert.Attn.R0 (V c main_v0) (V c main_v1) :=
  (dat0 V c).arrAt_eq_of_cover 2 (Cert.Attn.R0 (V c main_v0) (V c main_v1)) (fun t _ => flushed_0 V c t) cover_0

end Cert.KernelIdeal.Hand

end
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.AttnPay.lean ====
/-
  The attention kernel's body on the extended reals, read at one entry of its output block.

  A block holds two heads side by side (lanes 0–63 and 64–127). For the half that starts at lane o the body forms
  the scores  s(n, m) = (Σ_d q(n, o + d) · k(m, o + d)) · 1/8,  each row's maximum from −∞, the exponentials
  exp (s(n, m) − max_m s(n, m)),  each row's sum of them, the quotients, and the weighted values
  Σ_m p(n, m) · v(m, o + d);  the two halves are laid side by side again. Each stage is read at an index: the
  layout operations move coordinates, the two products are sums over the shared axis, the row reductions are the
  fold of max and the sum over the row. Nothing but the definitions of the operations is used.
-/
import proofs.«130550_j23562190586362_2_alg».proof.Proof.Gen.KernelIdeal.Skeleton
import proofs.«130550_j23562190586362_2_alg».proof.Proof.Spec
import proofs.«130550_j23562190586362_2_alg».proof.Proof.LibPlainDot
import proofs.«130550_j23562190586362_2_alg».proof.Proof.LibKeepdims

noncomputable section

open scoped BigOperators

namespace Cert.KernelIdeal.AttnPay

open Idealize.ShloMosaic Idealize.ShloMosaic.ValueIdx Cert.KernelIdeal Cert.Attn

/-! ## The stages, over variables -/

/-- The scaled scores of the half of a block that starts at lane o. -/
def sc (o : Nat) (ho : o + 64 ≤ 128) (q k : (⟨3, ![1, 1024, 128]⟩ : Shape).Idx → EReal) (n m : Fin 1024) : EReal :=
  (∑ d : Fin 64, q (ix3 0 n ⟨o + d.val, by omega⟩) * k (ix3 0 m ⟨o + d.val, by omega⟩)) * eighth

/-- A block [1, 1024, 128] cast to [1024, 128] and cut to the 64 columns from o, read at (p, d): the block at
    (0, p, o + d). -/
theorem sliceCast_apply (o : Nat) (x : (⟨3, ![1, 1024, 128]⟩ : Shape).Idx → EReal)
    (hc : S1x1024x128.ShapeCasts S1024x128) (hs : S1024x128.Slices ![0, o] S1024x64) (p : Fin 1024) (d : Fin 64)
    (hlt : o + d.val < 128) :
    extractStridedSlice S1024x64 ![0, o] (shapeCast S1024x128 x hc) hs (ix2 p d)
      = x (ix3 (0 : Fin 1) p ⟨o + d.val, hlt⟩) :=
  (slice2_axis1_eq o (shapeCast S1024x128 x hc) hs p d).trans (shapeCast_1ab_ab_apply x hc p _)

/-- The product of one [1024, 64] matrix with the transpose of another, scaled by the word of 1/8, at (n, m). -/
theorem score_apply (qs ks : FVec Ideal S1024x64 .bf16) (ht : S1024x64.Transposes [1, 0] S64x1024) (n m : Fin 1024) :
    mulf (matmul dot_S1024x64_S64x1024_S1024x1024_1_0_0_1_n_n none qs (transpose S64x1024 [1, 0] ks ht)
        (constant (F := Ideal) S1024x1024 .f32 0x00000000#32))
      (broadcast S1024x1024 (Scalar.ofBits (F := Ideal) .f32 0x3E000000#32)) (ix2 n m)
      = (∑ d : Fin 64, qs (ix2 n d) * ks (ix2 m d)) * eighth := by
  refine (mulf_apply _ _ _).trans ?_
  refine congrArg₂ (· * ·) ?_ rfl
  refine (Cert.Lib.PlainDot.matmul_plain_zero_apply none qs (transpose S64x1024 [1, 0] ks ht) n m).trans ?_
  exact Finset.sum_congr rfl fun d _ => congrArg (qs (ix2 n d) * ·) (transpose_ix2_apply ks ht d m)

/-- A row maximum from the word of −∞, at row n. -/
theorem rowMax_apply (s : FVec Ideal S1024x1024 .f32) (hr : S1024x1024.Reduces [1] S1024) (hφ : FKind.Formats .f32)
    (hacc : (0xFF800000#32 : BitVec 32) = 0xFF800000#32) (n : Fin 1024) :
    multiReduction .maximumf [1] S1024 s 0xFF800000#32 hr hφ hacc (ix1 n) = rowMax fun m => s (ix2 n m) := by
  refine (Ideal.multiReduction_maximumf_single s 0xFF800000#32 hr hφ hacc (ix1 n)).trans ?_
  unfold rowMax
  refine congrArg (fun f => (Finset.univ : Finset (Fin 1024)).fold max negInf f) ?_
  funext k
  exact congrArg s (Cert.Lib.Keepdims.lift_lastAxis hr n k)

/-- The shifted exponentials of a score matrix, at (n, m). -/
theorem exps_apply (s : FVec Ideal S1024x1024 .f32) (hr : S1024x1024.Reduces [1] S1024) (hφ : FKind.Formats .f32)
    (hacc : (0xFF800000#32 : BitVec 32) = 0xFF800000#32) (hc : S1024.ShapeCasts S1024x1)
    (hb : S1024x1.Broadcasts S1024x1024) (n m : Fin 1024) :
    exp (subf s (broadcastTo S1024x1024 (shapeCast S1024x1 (multiReduction .maximumf [1] S1024 s 0xFF800000#32 hr hφ hacc) hc) hb))
        (ix2 n m)
      = expo (fun m' => s (ix2 n m')) m := by
  unfold expo
  refine congrArg Ideal.exp ?_
  refine (subf_apply _ _ _).trans ?_
  refine congrArg (s (ix2 n m) - ·) ?_
  refine (Cert.Lib.Keepdims.broadcastTo_a1_ab_apply _ hb n m).trans ?_
  refine (Cert.Lib.Keepdims.shapeCast_a_a1_apply _ hc n 0).trans ?_
  exact rowMax_apply s hr hφ hacc n

/-- The row sums of a matrix, as a column broadcast back over the row, at (n, m). -/
theorem sums_apply (e : FVec Ideal S1024x1024 .f32) (hr : S1024x1024.Reduces [1] S1024) (hφ : FKind.Formats .f32)
    (hacc : (0x00000000#32 : BitVec 32) = 0x00000000#32) (hc : S1024.ShapeCasts S1024x1)
    (hb : S1024x1.Broadcasts S1024x1024) (n m : Fin 1024) :
    broadcastTo S1024x1024 (shapeCast S1024x1 (multiReduction .add [1] S1024 e 0x00000000#32 hr hφ hacc) hc) hb (ix2 n m)
      = ∑ m' : Fin 1024, e (ix2 n m') := by
  refine (Cert.Lib.Keepdims.broadcastTo_a1_ab_apply _ hb n m).trans ?_
  refine (Cert.Lib.Keepdims.shapeCast_a_a1_apply _ hc n 0).trans ?_
  exact Cert.Lib.Keepdims.rowSum_apply e hr hφ hacc n

/-- The quotients of two [1024, 1024] matrices times a [1024, 64] matrix, at (n, d). -/
theorem weighted_apply (e r : FVec Ideal S1024x1024 .f32) (vs : FVec Ideal S1024x64 .bf16)
    (hlt : FTy.bits .bf16 < FTy.bits .f32) (n : Fin 1024) (d : Fin 64) :
    truncf .bf16 (matmul dot_S1024x1024_S1024x64_S1024x64_1_0_0_1_n_n none (truncf .bf16 (divf e r) hlt) vs
        (constant (F := Ideal) S1024x64 .f32 0x00000000#32)) hlt (ix2 n d)
      = ∑ m : Fin 1024, Ideal.div (e (ix2 n m)) (r (ix2 n m)) * vs (ix2 m d) :=
  Cert.Lib.PlainDot.matmul_plain_zero_apply none (truncf .bf16 (divf e r) hlt) vs n d

/-! ## One half of the block, as the body forms it -/

/-- The score matrix of the half from lane o, as the body forms it from the two blocks. -/
abbrev scoreMat (o : Nat) (q k : (⟨3, ![1, 1024, 128]⟩ : Shape).Idx → EReal)
    (hc : S1x1024x128.ShapeCasts S1024x128) (hs : S1024x128.Slices ![0, o] S1024x64)
    (ht : S1024x64.Transposes [1, 0] S64x1024) : FVec Ideal S1024x1024 .f32 :=
  mulf (matmul dot_S1024x64_S64x1024_S1024x1024_1_0_0_1_n_n none
        (extractStridedSlice S1024x64 ![0, o] (shapeCast S1024x128 q hc) hs : FVec Ideal S1024x64 .bf16)
        (transpose S64x1024 [1, 0]
          (extractStridedSlice S1024x64 ![0, o] (shapeCast S1024x128 k hc) hs : FVec Ideal S1024x64 .bf16) ht)
        (constant (F := Ideal) S1024x1024 .f32 0x00000000#32))
    (broadcast S1024x1024 (Scalar.ofBits (F := Ideal) .f32 0x3E000000#32))

theorem scoreMat_apply (o : Nat) (ho : o + 64 ≤ 128) (q k : (⟨3, ![1, 1024, 128]⟩ : Shape).Idx → EReal)
    (hc : S1x1024x128.ShapeCasts S1024x128) (hs : S1024x128.Slices ![0, o] S1024x64)
    (ht : S1024x64.Transposes [1, 0] S64x1024) (n m : Fin 1024) :
    scoreMat o q k hc hs ht (ix2 n m) = sc o ho q k n m := by
  refine (score_apply _ _ ht n m).trans ?_
  unfold sc
  refine congrArg (· * eighth) ?_
  exact Finset.sum_congr rfl fun d _ =>
    congrArg₂ (· * ·) (sliceCast_apply o q hc hs n d _) (sliceCast_apply o k hc hs m d _)

/-- The exponentials matrix of the half from lane o. -/
abbrev expsMat (o : Nat) (q k : (⟨3, ![1, 1024, 128]⟩ : Shape).Idx → EReal)
    (hc : S1x1024x128.ShapeCasts S1024x128) (hs : S1024x128.Slices ![0, o] S1024x64)
    (ht : S1024x64.Transposes [1, 0] S64x1024) (hr : S1024x1024.Reduces [1] S1024) (hφ : FKind.Formats .f32)
    (hacc : (0xFF800000#32 : BitVec 32) = 0xFF800000#32) (hc1 : S1024.ShapeCasts S1024x1)
    (hb : S1024x1.Broadcasts S1024x1024) : FVec Ideal S1024x1024 .f32 :=
  exp (subf (scoreMat o q k hc hs ht) (broadcastTo S1024x1024 (shapeCast S1024x1
    (multiReduction .maximumf [1] S1024 (scoreMat o q k hc hs ht) 0xFF800000#32 hr hφ hacc) hc1) hb))

theorem expsMat_apply (o : Nat) (ho : o + 64 ≤ 128) (q k : (⟨3, ![1, 1024, 128]⟩ : Shape).Idx → EReal)
    (hc : S1x1024x128.ShapeCasts S1024x128) (hs : S1024x128.Slices ![0, o] S1024x64)
    (ht : S1024x64.Transposes [1, 0] S64x1024) (hr : S1024x1024.Reduces [1] S1024) (hφ : FKind.Formats .f32)
    (hacc : (0xFF800000#32 : BitVec 32) = 0xFF800000#32) (hc1 : S1024.ShapeCasts S1024x1)
    (hb : S1024x1.Broadcasts S1024x1024) (n m : Fin 1024) :
    expsMat o q k hc hs ht hr hφ hacc hc1 hb (ix2 n m) = expo (sc o ho q k n) m :=
  (exps_apply _ hr hφ hacc hc1 hb n m).trans
    (congrArg (fun s => expo s m) (funext fun m' => scoreMat_apply o ho q k hc hs ht n m'))

/-! ## The payloads at an index -/

theorem pay7_apply (q k : Vec Ideal S1x1024x128 .bf16) (n m : Fin 1024) :
    Gen.k1_pay7 (F := Ideal) q k (ix2 n m) = expo (sc 64 (by omega) q k n) m := by
  unfold Gen.k1_pay7 Gen.k1_pay2 Gen.k1_pay3
  exact expsMat_apply 64 (by omega) q k _ _ _ _ _ _ _ _ n m

theorem pay8_apply (q k : Vec Ideal S1x1024x128 .bf16) (n m : Fin 1024) :
    Gen.k1_pay8 (F := Ideal) q k (ix2 n m) = ∑ m' : Fin 1024, expo (sc 64 (by omega) q k n) m' := by
  unfold Gen.k1_pay8
  refine (sums_apply _ _ _ _ _ _ n m).trans ?_
  exact Finset.sum_congr rfl fun m' _ => pay7_apply q k n m'

theorem pay6_apply (v : Vec Ideal S1x1024x128 .bf16) (m : Fin 1024) (d : Fin 64) (hlt : 64 + d.val < 128) :
    Gen.k1_pay6 (F := Ideal) v (ix2 m d) = v (ix3 (0 : Fin 1) m ⟨64 + d.val, hlt⟩) := by
  unfold Gen.k1_pay6 Gen.k1_pay4
  exact sliceCast_apply 64 v _ _ m d hlt

theorem pay5_apply (q k v : Vec Ideal S1x1024x128 .bf16) (n : Fin 1024) (d : Fin 64) (hlt : 0 + d.val < 128) :
    Gen.k1_pay5 (F := Ideal) q k v (ix2 n d)
      = ∑ m : Fin 1024, prob (sc 0 (by omega) q k n) m * v (ix3 (0 : Fin 1) m ⟨0 + d.val, hlt⟩) := by
  unfold Gen.k1_pay5 Gen.k1_pay2 Gen.k1_pay3 Gen.k1_pay4
  refine (weighted_apply _ _ _ _ n d).trans ?_
  refine Finset.sum_congr rfl fun m _ => ?_
  refine congrArg₂ (· * ·) ?_ (sliceCast_apply 0 v _ _ m d hlt)
  unfold prob
  refine congrArg₂ Ideal.div (expsMat_apply 0 (by omega) q k _ _ _ _ _ _ _ _ n m) ?_
  refine (sums_apply _ _ _ _ _ _ n m).trans ?_
  exact Finset.sum_congr rfl fun m' _ => expsMat_apply 0 (by omega) q k _ _ _ _ _ _ _ _ n m'

/-! ## The two halves side by side -/

/-- Two [1024, 64] matrices laid side by side into [1024, 128], read at (n, l): the first at lane l below 64,
    the second at lane l − 64 from 64 on. -/
theorem concat_cols_apply {α : Type} (x₁ x₂ : S1024x64.Idx → α)
    (h : Shape.Concatenates [S1024x64, S1024x64] S1024x128 1) (n : Fin 1024) (l : Fin 128) :
    concatenate S1024x128 1 [⟨S1024x64, x₁⟩, ⟨S1024x64, x₂⟩] h (ix2 n l)
      = if hl : l.val < 64 then x₁ (ix2 n ⟨l.val, hl⟩) else x₂ (ix2 n ⟨l.val - 64, by omega⟩) := by
  by_cases hl : l.val < 64
  · refine Eq.trans ?_ (dif_pos hl).symm
    exact concatenate_pair_apply_left 1 x₁ x₂ h (ix2 n l) rfl (ix2 n ⟨l.val, hl⟩)
      (fun b => match b with | ⟨0, _⟩ => rfl | ⟨1, _⟩ => rfl)
  · refine Eq.trans ?_ (dif_neg hl).symm
    refine concatenate_pair_apply_right 1 x₁ x₂ h (ix2 n l) rfl rfl (ix2 n ⟨l.val - 64, by omega⟩)
      (fun b hb => match b, hb with | ⟨0, _⟩, _ => rfl | ⟨1, _⟩, hb => absurd rfl hb) ?_
    show l.val - 64 + 64 = l.val
    omega

/-- The scores of the half that starts at lane o are the block scores of every lane of that half. -/
theorem sc_eq_blockScore (o : Nat) (ho : o + 64 ≤ 128) (q k : (⟨3, ![1, 1024, 128]⟩ : Shape).Idx → EReal)
    (l : Fin 128) (h : halfOff l = o) (n : Fin 1024) : sc o ho q k n = blockScore q k l n := by
  subst h
  rfl

/-- The body of the attention kernel at row n, lane l of its output block. -/
theorem attn_pay_apply (q k v : Vec Ideal Cert.KernelIdeal.S1x1024x128 .bf16) (n : Fin 1024) (l : Fin 128) :
    Cert.KernelIdeal.Gen.k1_pay1 (F := Ideal) (Cert.KernelIdeal.Gen.k1_pay5 q k v) (Cert.KernelIdeal.Gen.k1_pay6 v)
        (Cert.KernelIdeal.Gen.k1_pay7 q k) (Cert.KernelIdeal.Gen.k1_pay8 q k) (ValueIdx.ix3 (0 : Fin 1) n l)
      = Cert.Attn.blockAttn q k v n l := by
  unfold Gen.k1_pay1
  refine (shapeCast_ab_1ab_apply _ _ (0 : Fin 1) n l).trans ?_
  refine (concat_cols_apply _ _ _ n l).trans ?_
  unfold blockAttn
  by_cases hl : l.val < 64
  · refine (dif_pos hl).trans ?_
    have h0 : halfOff l = 0 := by unfold halfOff; omega
    refine (pay5_apply q k v n ⟨l.val, hl⟩ (by show 0 + l.val < 128; omega)).trans ?_
    refine Finset.sum_congr rfl fun m _ => ?_
    refine congrArg₂ (· * ·) (congrArg (fun s => prob s m) (sc_eq_blockScore 0 (by omega) q k l h0 n)) ?_
    exact congrArg (fun c => v (ix3 (0 : Fin 1) m c)) (Fin.ext (Nat.zero_add l.val))
  · refine (dif_neg hl).trans ?_
    have h64 : halfOff l = 64 := by unfold halfOff; omega
    have hd : l.val - 64 < 64 := by omega
    refine (weighted_apply _ _ _ _ n ⟨l.val - 64, hd⟩).trans ?_
    refine Finset.sum_congr rfl fun m _ => ?_
    refine congrArg₂ (· * ·) ?_ ?_
    · unfold prob
      refine congrArg₂ Ideal.div ?_ ?_
      · exact (pay7_apply q k n m).trans (congrArg (fun s => expo s m) (sc_eq_blockScore 64 (by omega) q k l h64 n))
      · refine (pay8_apply q k n m).trans ?_
        exact Finset.sum_congr rfl fun m' _ =>
          congrArg (fun s => expo s m') (sc_eq_blockScore 64 (by omega) q k l h64 n)
    · refine (pay6_apply v m ⟨l.val - 64, hd⟩ (by show 64 + (l.val - 64) < 128; omega)).trans ?_
      exact congrArg (fun c => v (ix3 (0 : Fin 1) m c)) (Fin.ext (by show 64 + (l.val - 64) = l.val; omega))

end Cert.KernelIdeal.AttnPay

end
-- ==== Proof.Val1.lean ====
/-
  The attention kernel's result array on the extended reals: the attention of every batch and head.

  Grid point t = 8·b + g (batch b, head pair g) reads lanes [128·g, 128·g + 128) of the query section, of the key section
  (channels 1024 + …) and of the value section (channels 2048 + …) of batch b of the joint projection Z, all 1024 positions,
  and writes back lanes [128·g, 128·g + 128) of batch b of the result. What it writes at (n, l) is the softmax-weighted
  values of lane l of the pair, which is the attention of head 2·g + l / 64 at lane l % 64, that is entry
  (b, n, 128·g + l) of the attention output. The 64 blocks tile the result (entry (b, n, c) lies in the block of
  point 8·b + c / 128), so the array ends holding the attention output at every entry.
-/
import proofs.«130550_j23562190586362_2_alg».proof.Proof.KI.Reg1
import proofs.«130550_j23562190586362_2_alg».proof.Proof.Compose
import proofs.«130550_j23562190586362_2_alg».proof.Proof.AttnPay
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The whole-buffer rectangle starts at the origin. -/
theorem origin_1 : (![0, 0, 0] : Fin 3 → Nat) = fun _ => 0 := funext fun a => by fin_cases a <;> rfl

/-- The block indices over the grid: point t is batch t / 8 and head pair t % 8; the query, key and value windows read
    lane blocks t % 8, 8 + t % 8 and 16 + t % 8 of that batch, the result window writes lane block t % 8 of it. -/
theorem index_1 : ∀ t : Fin cfg1.N,
    win1_0.index t (0 : Fin 3) = t.val / 8 ∧ win1_0.index t (1 : Fin 3) = 0 ∧ win1_0.index t (2 : Fin 3) = t.val % 8
    ∧ win1_1.index t (0 : Fin 3) = t.val / 8 ∧ win1_1.index t (1 : Fin 3) = 0 ∧ win1_1.index t (2 : Fin 3) = 8 + t.val % 8
    ∧ win1_2.index t (0 : Fin 3) = t.val / 8 ∧ win1_2.index t (1 : Fin 3) = 0 ∧ win1_2.index t (2 : Fin 3) = 16 + t.val % 8
    ∧ win1_3.index t (0 : Fin 3) = t.val / 8 ∧ win1_3.index t (1 : Fin 3) = 0 ∧ win1_3.index t (2 : Fin 3) = t.val % 8 :=
  (by decide +kernel : ∀ t : Fin grid1.N, _)

/-- The query block at point t = 8·b + g, entry (n, l), is channel 128·g + l of position n of batch b. -/
theorem qBlock_1 (c : Dev nD) (t : Fin cfg1.N) (b g : Fin 8) (hb : b.val = t.val / 8) (hg : g.val = t.val % 8)
    (n : Fin 1024) (l : Fin 128) :
    (iblk1 V c 0 t : Vec Ideal S1x1024x128 .bf16) (ix3 (0 : Fin 1) n l)
      = (V c main_v4 : S8x1024x3072.Idx → EReal) (ix3 b n ⟨128 * g.val + l.val, by omega⟩) := by
  obtain ⟨e0, e1, e2, -⟩ := index_1 t
  unfold iblk1
  show V c main_v4 (((cfg1.win 0).blk t).view.emb (ix3 (0 : Fin 1) n l)) = V c main_v4 (ix3 b n _)
  refine congrArg (V c main_v4) ?_
  funext a; apply Fin.ext
  match a with
  | ⟨0, _⟩ => show win1_0.index t (0 : Fin 3) * 1 + 1 * 0 = b.val; omega
  | ⟨1, _⟩ => show win1_0.index t (1 : Fin 3) * 1024 + 1 * n.val = n.val; omega
  | ⟨2, _⟩ => show win1_0.index t (2 : Fin 3) * 128 + 1 * l.val = 128 * g.val + l.val; omega

/-- The key block at point t = 8·b + g, entry (n, l), is channel 1024 + 128·g + l of position n of batch b. -/
theorem kBlock_1 (c : Dev nD) (t : Fin cfg1.N) (b g : Fin 8) (hb : b.val = t.val / 8) (hg : g.val = t.val % 8)
    (n : Fin 1024) (l : Fin 128) :
    (iblk1 V c 1 t : Vec Ideal S1x1024x128 .bf16) (ix3 (0 : Fin 1) n l)
      = (V c main_v4 : S8x1024x3072.Idx → EReal) (ix3 b n ⟨1024 + 128 * g.val + l.val, by omega⟩) := by
  obtain ⟨-, -, -, e0, e1, e2, -⟩ := index_1 t
  unfold iblk1
  show V c main_v4 (((cfg1.win 1).blk t).view.emb (ix3 (0 : Fin 1) n l)) = V c main_v4 (ix3 b n _)
  refine congrArg (V c main_v4) ?_
  funext a; apply Fin.ext
  match a with
  | ⟨0, _⟩ => show win1_1.index t (0 : Fin 3) * 1 + 1 * 0 = b.val; omega
  | ⟨1, _⟩ => show win1_1.index t (1 : Fin 3) * 1024 + 1 * n.val = n.val; omega
  | ⟨2, _⟩ => show win1_1.index t (2 : Fin 3) * 128 + 1 * l.val = 1024 + 128 * g.val + l.val; omega

/-- The value block at point t = 8·b + g, entry (n, l), is channel 2048 + 128·g + l of position n of batch b. -/
theorem vBlock_1 (c : Dev nD) (t : Fin cfg1.N) (b g : Fin 8) (hb : b.val = t.val / 8) (hg : g.val = t.val % 8)
    (n : Fin 1024) (l : Fin 128) :
    (iblk1 V c 2 t : Vec Ideal S1x1024x128 .bf16) (ix3 (0 : Fin 1) n l)
      = (V c main_v4 : S8x1024x3072.Idx → EReal) (ix3 b n ⟨2048 + 128 * g.val + l.val, by omega⟩) := by
  obtain ⟨-, -, -, -, -, -, e0, e1, e2, -⟩ := index_1 t
  unfold iblk1
  show V c main_v4 (((cfg1.win 2).blk t).view.emb (ix3 (0 : Fin 1) n l)) = V c main_v4 (ix3 b n _)
  refine congrArg (V c main_v4) ?_
  funext a; apply Fin.ext
  match a with
  | ⟨0, _⟩ => show win1_2.index t (0 : Fin 3) * 1 + 1 * 0 = b.val; omega
  | ⟨1, _⟩ => show win1_2.index t (1 : Fin 3) * 1024 + 1 * n.val = n.val; omega
  | ⟨2, _⟩ => show win1_2.index t (2 : Fin 3) * 128 + 1 * l.val = 2048 + 128 * g.val + l.val; omega

/-- Entry (n, l) of the result block at point t = 8·b + g sits at (b, n, 128·g + l) of the result array. -/
theorem outPos_1 (t : Fin cfg1.N) (b g : Fin 8) (hb : b.val = t.val / 8) (hg : g.val = t.val % 8)
    (n : Fin 1024) (l : Fin 128) :
    ((cfg1.win 3).blk t).view.emb (ix3 (0 : Fin 1) n l)
      = (ix3 b n ⟨128 * g.val + l.val, by omega⟩ : S8x1024x1024.Idx) := by
  obtain ⟨-, -, -, -, -, -, -, -, -, e0, e1, e2⟩ := index_1 t
  funext a; apply Fin.ext
  match a with
  | ⟨0, _⟩ => show win1_3.index t (0 : Fin 3) * 1 + 1 * 0 = b.val; omega
  | ⟨1, _⟩ => show win1_3.index t (1 : Fin 3) * 1024 + 1 * n.val = n.val; omega
  | ⟨2, _⟩ => show win1_3.index t (2 : Fin 3) * 128 + 1 * l.val = 128 * g.val + l.val; omega

/-- The body's result on the three lane blocks of batch b and head pair g of Z is the attention output at
    (b, n, 128·g + l). -/
theorem point_1 (Z : S8x1024x3072.Idx → EReal) (q k v : Vec Ideal S1x1024x128 .bf16) (b g : Fin 8)
    (hq : ∀ n (l : Fin 128), q (ix3 (0 : Fin 1) n l) = Z (ix3 b n ⟨128 * g.val + l.val, by omega⟩))
    (hk : ∀ n (l : Fin 128), k (ix3 (0 : Fin 1) n l) = Z (ix3 b n ⟨1024 + 128 * g.val + l.val, by omega⟩))
    (hv : ∀ n (l : Fin 128), v (ix3 (0 : Fin 1) n l) = Z (ix3 b n ⟨2048 + 128 * g.val + l.val, by omega⟩))
    (n : Fin 1024) (l : Fin 128) :
    k1_pay1 (F := Ideal) (k1_pay5 q k v) (k1_pay6 v) (k1_pay7 q k) (k1_pay8 q k) (ix3 (0 : Fin 1) n l)
      = Cert.Attn.R1 Z (ix3 b n ⟨128 * g.val + l.val, by omega⟩) :=
  (Cert.KernelIdeal.AttnPay.attn_pay_apply q k v n l).trans (Cert.Attn.blockAttn_eq Z b g q k v hq hk hv n l)

/-- What point t writes back is its block of the attention output of the joint projection the region finds. -/
theorem flushed_1 (c : Dev nD) (t : Fin cfg1.N) :
    (dat1 V c).flushed 3 t = ((cfg1.win 3).blk t).view.read (Elt Ideal) (Cert.Attn.R1 (V c main_v4)) := by
  show (cfg1.win 3).cut (grid1.coords t) ((dat1 V c).after 3 t) = _
  rw [after1_3]
  unfold out1_3
  rw [View.canon_unit_zero origin_1]
  simp only [View.ld_unit_zero (S := S1x1024x128) origin_1]
  funext j
  obtain ⟨u, n, l, rfl⟩ : ∃ (u : Fin 1) (n : Fin 1024) (l : Fin 128), j = ix3 u n l :=
    ⟨j 0, j 1, j 2, eq_ix3 (n0 := 1) (n1 := 1024) (n2 := 128) j⟩
  obtain rfl : u = 0 := Subsingleton.elim _ _
  have ht : t.val < 64 := lt_of_lt_of_eq t.isLt N_1
  obtain ⟨b, hb⟩ : ∃ b : Fin 8, b.val = t.val / 8 := ⟨⟨t.val / 8, by omega⟩, rfl⟩
  obtain ⟨g, hg⟩ : ∃ g : Fin 8, g.val = t.val % 8 := ⟨⟨t.val % 8, by omega⟩, rfl⟩
  show k1_pay1 (F := Ideal) (k1_pay5 (iblk1 V c 0 t) (iblk1 V c 1 t) (iblk1 V c 2 t)) (k1_pay6 (iblk1 V c 2 t))
      (k1_pay7 (iblk1 V c 0 t) (iblk1 V c 1 t)) (k1_pay8 (iblk1 V c 0 t) (iblk1 V c 1 t)) (ix3 (0 : Fin 1) n l)
    = Cert.Attn.R1 (V c main_v4) (((cfg1.win 3).blk t).view.emb (ix3 (0 : Fin 1) n l))
  rw [outPos_1 t b g hb hg n l]
  exact point_1 (V c main_v4) (iblk1 V c 0 t) (iblk1 V c 1 t) (iblk1 V c 2 t) b g
    (qBlock_1 V c t b g hb hg) (kBlock_1 V c t b g hb hg) (vBlock_1 V c t b g hb hg) n l

/-- An index of the result array is in point t's block iff each coordinate is in the block's range on its axis. -/
theorem mem_blk_1 (t : Fin cfg1.N) (i : S8x1024x1024.Idx) :
    i ∈ ((cfg1.win 3).blk t).view.set
      ↔ ∀ a : Fin 3, win1_3.index t a * S1x1024x128.size a ≤ (i a).val
          ∧ (i a).val < win1_3.index t a * S1x1024x128.size a + S1x1024x128.size a := by
  show i ∈ ((View.whole main_v5).slice (win1_3.rect t)).set ↔ _
  rw [View.set_slice_whole, Rect.mem_set_unit]
  exact Iff.rfl

/-- Every entry of the result array is written back by some point: (b, n, c) by point 8·b + c / 128. -/
theorem cover_1 (i : S8x1024x1024.Idx) :
    ∃ t : Fin cfg1.N, (cfg1.win 3).flush t = true ∧ i ∈ ((cfg1.win 3).blk t).view.set := by
  have hi0 : (i 0).val < 8 := (i 0).isLt
  have hi1 : (i 1).val < 1024 := (i 1).isLt
  have hi2 : (i 2).val < 1024 := (i 2).isLt
  obtain ⟨t, ht⟩ : ∃ t : Fin cfg1.N, t.val = 8 * (i 0).val + (i 2).val / 128 :=
    ⟨⟨8 * (i 0).val + (i 2).val / 128, by rw [show cfg1.N = 64 from N_1]; omega⟩, rfl⟩
  obtain ⟨-, -, -, -, -, -, -, -, -, e0, e1, e2⟩ := index_1 t
  refine ⟨t, flush1_3 t, ?_⟩
  rw [mem_blk_1]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 1024 ≤ (i 1).val ∧ (i 1).val < win1_3.index t (1 : Fin 3) * 1024 + 1024
    omega
  | ⟨2, _⟩ =>
    show win1_3.index t (2 : Fin 3) * 128 ≤ (i 2).val ∧ (i 2).val < win1_3.index t (2 : Fin 3) * 128 + 128
    omega

/-- The result array after the run is the attention output of the joint projection the region finds. -/
theorem final1 (c : Dev nD) : (dat1 (F := Ideal) V c).arrAt 3 cfg1.N = Cert.Attn.R1 (V c main_v4) :=
  (dat1 V c).arrAt_eq_of_cover 3 (Cert.Attn.R1 (V c main_v4)) (fun t _ => flushed_1 V c t) cover_1

end Cert.KernelIdeal.Hand

end
-- ==== Proof.Val2.lean ====
/-
  The last kernel's result array on the extended reals: the output projection of the flattened rows plus the bias.

  Grid point t writes back rows 512·t … 512·t + 511 of the result, every column. What it writes at (p, o) is
  Σ_k A(512·t + p, k) · W(o, k) + B(0, o): the input window's block at t is rows 512·t … of A, the weight window's block is
  all of W and the bias window's block is the one bias row, at every point. The 16 row blocks tile the 8192 rows (row r
  lies in block r / 512), so the array ends holding that sum at every (r, o).
-/
import proofs.«130550_j23562190586362_2_alg».proof.Proof.KI.Reg2
import proofs.«130550_j23562190586362_2_alg».proof.Proof.Compose
import proofs.«130550_j23562190586362_2_alg».proof.Proof.MatPay
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The whole-buffer rectangles start at the origin. -/
theorem origin_2 : (![0, 0] : Fin 2 → Nat) = fun _ => 0 := funext fun a => by fin_cases a <;> rfl

/-- The block indices over the grid: input and result move down the rows with the point, weights and bias stay at
    block 0. -/
theorem index_2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input block at point t, entry (p, k), is row 512·t + p of the flattened attention output. -/
theorem inBlock_2 (c : Dev nD) (t : Fin cfg2.N) (p : Fin 512) (k : Fin 1024) (r : Fin 8192)
    (hr : r.val = 512 * t.val + p.val) :
    (iblk2 V c 0 t : Vec Ideal S512x1024 .bf16) (ix2 p k) = (V c main_v6 : S8192x1024.Idx → EReal) (ix2 r k) := by
  obtain ⟨e00, e01, -⟩ := index_2 t
  unfold iblk2
  show V c main_v6 (((cfg2.win 0).blk t).view.emb (ix2 p k)) = V c main_v6 (ix2 r k)
  refine congrArg (V c main_v6) ?_
  funext a; apply Fin.ext
  match a with
  | ⟨0, _⟩ => show win2_0.index t (0 : Fin 2) * 512 + 1 * p.val = r.val; omega
  | ⟨1, _⟩ => show win2_0.index t (1 : Fin 2) * 1024 + 1 * k.val = k.val; omega

/-- The weight block at any point is the whole weight matrix. -/
theorem wBlock_2 (c : Dev nD) (t : Fin cfg2.N) (o : Fin 1024) (k : Fin 1024) :
    (iblk2 V c 1 t : Vec Ideal S1024x1024 .bf16) (ix2 o k) = (V c main_v2 : S1024x1024.Idx → EReal) (ix2 o k) := by
  obtain ⟨-, -, e10, e11, -⟩ := index_2 t
  unfold iblk2
  show V c main_v2 (((cfg2.win 1).blk t).view.emb (ix2 o k)) = V c main_v2 (ix2 o k)
  refine congrArg (V c main_v2) ?_
  funext a; apply Fin.ext
  match a with
  | ⟨0, _⟩ => show win2_1.index t (0 : Fin 2) * 1024 + 1 * o.val = o.val; omega
  | ⟨1, _⟩ => show win2_1.index t (1 : Fin 2) * 1024 + 1 * k.val = k.val; omega

/-- The bias block at any point is the one bias row. -/
theorem bBlock_2 (c : Dev nD) (t : Fin cfg2.N) (o : Fin 1024) :
    (iblk2 V c 2 t : Vec Ideal S1x1024 .f32) (ix2 (0 : Fin 1) o)
      = (V c main_v7 : S1x1024.Idx → EReal) (ix2 (0 : Fin 1) o) := by
  obtain ⟨-, -, -, -, e20, e21, -⟩ := index_2 t
  unfold iblk2
  show V c main_v7 (((cfg2.win 2).blk t).view.emb (ix2 (0 : Fin 1) o)) = V c main_v7 (ix2 (0 : Fin 1) o)
  refine congrArg (V c main_v7) ?_
  funext a; apply Fin.ext
  match a with
  | ⟨0, _⟩ => show win2_2.index t (0 : Fin 2) * 1 + 1 * (0 : Fin 1).val = (0 : Fin 1).val; omega
  | ⟨1, _⟩ => show win2_2.index t (1 : Fin 2) * 1024 + 1 * o.val = o.val; omega

/-- Entry (p, o) of the result block at point t sits at row 512·t + p, column o of the result array. -/
theorem outPos_2 (t : Fin cfg2.N) (p : Fin 512) (o : Fin 1024) (r : Fin 8192) (hr : r.val = 512 * t.val + p.val) :
    ((cfg2.win 3).blk t).view.emb (ix2 p o) = (ix2 r o : S8192x1024.Idx) := by
  obtain ⟨-, -, -, -, -, -, e30, e31⟩ := index_2 t
  funext a; apply Fin.ext
  match a with
  | ⟨0, _⟩ => show win2_3.index t (0 : Fin 2) * 512 + 1 * p.val = r.val; omega
  | ⟨1, _⟩ => show win2_3.index t (1 : Fin 2) * 1024 + 1 * o.val = o.val; omega

/-- The body's product of a row block x0 of A (row p of the block is row r of A) with the transposed weights, plus the
    bias row, is the output projection at (r, o). -/
theorem point_2 (A : S8192x1024.Idx → EReal) (W : S1024x1024.Idx → EReal) (B : S1x1024.Idx → EReal)
    (x0 : Vec Ideal S512x1024 .bf16) (x1 : Vec Ideal S1024x1024 .bf16) (x2 : Vec Ideal S1x1024 .f32)
    (p : Fin 512) (o : Fin 1024) (r : Fin 8192)
    (h0 : ∀ k : Fin 1024, x0 (ix2 p k) = A (ix2 r k)) (h1 : ∀ k : Fin 1024, x1 (ix2 o k) = W (ix2 o k))
    (h2 : x2 (ix2 (0 : Fin 1) o) = B (ix2 (0 : Fin 1) o)) :
    k2_pay1 (F := Ideal) x0 x1 x2 (ix2 p o) = Cert.Attn.R2 A W B (ix2 r o) := by
  rw [Cert.KernelIdeal.MatPay.proj_pay_apply]
  show Cert.Attn.mmT x0 x1 p o + x2 (ix2 (0 : Fin 1) o) = Cert.Attn.mmT A W r o + B (ix2 (0 : Fin 1) o)
  rw [h2]
  refine congrArg (· + B (ix2 (0 : Fin 1) o)) ?_
  unfold Cert.Attn.mmT
  exact Finset.sum_congr rfl fun k _ => by rw [h0, h1]

/-- What point t writes back is its block of the output projection of the arrays the region finds. -/
theorem flushed_2 (c : Dev nD) (t : Fin cfg2.N) :
    (dat2 V c).flushed 3 t
      = ((cfg2.win 3).blk t).view.read (Elt Ideal) (Cert.Attn.R2 (V c main_v6) (V c main_v2) (V c main_v7)) := by
  show (cfg2.win 3).cut (grid2.coords t) ((dat2 V c).after 3 t) = _
  rw [after2_3]
  unfold out2_3
  rw [View.canon_unit_zero origin_2]
  simp only [View.ld_unit_zero (S := S512x1024) origin_2, View.ld_unit_zero (S := S1024x1024) origin_2,
    View.ld_unit_zero (S := S1x1024) origin_2]
  funext j
  obtain ⟨p, o, rfl⟩ : ∃ (p : Fin 512) (o : Fin 1024), j = ix2 p o := ⟨j 0, j 1, eq_ix2 (n0 := 512) (n1 := 1024) j⟩
  have ht : t.val < 16 := lt_of_lt_of_eq t.isLt N_2
  show k2_pay1 (F := Ideal) (iblk2 V c 0 t) (iblk2 V c 1 t) (iblk2 V c 2 t) (ix2 p o)
    = Cert.Attn.R2 (V c main_v6) (V c main_v2) (V c main_v7) (((cfg2.win 3).blk t).view.emb (ix2 p o))
  rw [outPos_2 t p o ⟨512 * t.val + p.val, by omega⟩ rfl]
  exact point_2 _ _ _ _ _ _ p o _ (fun k => inBlock_2 V c t p k _ rfl) (fun k => wBlock_2 V c t o k) (bBlock_2 V c t o)

/-- An index of the result array is in point t's block iff each coordinate is in the block's range on its axis. -/
theorem mem_blk_2 (t : Fin cfg2.N) (i : S8192x1024.Idx) :
    i ∈ ((cfg2.win 3).blk t).view.set
      ↔ ∀ a : Fin 2, win2_3.index t a * S512x1024.size a ≤ (i a).val
          ∧ (i a).val < win2_3.index t a * S512x1024.size a + S512x1024.size a := by
  show i ∈ ((View.whole main_v8).slice (win2_3.rect t)).set ↔ _
  rw [View.set_slice_whole, Rect.mem_set_unit]
  exact Iff.rfl

/-- Every entry of the result array is written back by some point: row r by point r / 512. -/
theorem cover_2 (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  obtain ⟨t, ht⟩ : ∃ t : Fin cfg2.N, t.val = (i 0).val / 512 :=
    ⟨⟨(i 0).val / 512, by rw [show cfg2.N = 16 from N_2]; omega⟩, rfl⟩
  obtain ⟨-, -, -, -, -, -, e30, e31⟩ := index_2 t
  refine ⟨t, flush2_3 t, ?_⟩
  rw [mem_blk_2]
  intro a
  match a with
  | ⟨0, _⟩ =>
    show win2_3.index t (0 : Fin 2) * 512 ≤ (i 0).val ∧ (i 0).val < win2_3.index t (0 : Fin 2) * 512 + 512
    omega
  | ⟨1, _⟩ =>
    show win2_3.index t (1 : Fin 2) * 1024 ≤ (i 1).val ∧ (i 1).val < win2_3.index t (1 : Fin 2) * 1024 + 1024
    omega

/-- The result array after the run is the output projection, plus the bias, of the rows of the arrays the region
    finds. -/
theorem final2 (c : Dev nD) :
    (dat2 (F := Ideal) V c).arrAt 3 cfg2.N = Cert.Attn.R2 (V c main_v6) (V c main_v2) (V c main_v7) :=
  (dat2 V c).arrAt_eq_of_cover 3 (Cert.Attn.R2 (V c main_v6) (V c main_v2) (V c main_v7))
    (fun t _ => flushed_2 V c t) cover_2

end Cert.KernelIdeal.Hand

end
-- ==== Proof.RefValue.Proj.lean ====
/-
  The reference's first stages read at coordinates: the joint projection x·wᵀ at (b, n, o), and the query, key and
  value arrays at (b, h, n, d), each of which is channel s·1024 + h·64 + d of the joint projection (s = 0, 1, 2).
-/
import proofs.«130550_j23562190586362_2_alg».proof.Proof.Gen.ReferenceIdeal.Read
import proofs.«130550_j23562190586362_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open scoped BigOperators

/-- The joint projection at (b, n, o) is the sum over the input channels. -/
theorem proj_apply (x0 : (⟨S8x1024x1024, .f32⟩ : BufTy).Contents (Elt Ideal)) (x1 : (⟨S3072x1024, .f32⟩ : BufTy).Contents (Elt Ideal)) (b : Fin 8) (n : Fin 1024) (o : Fin 3072) :
    val_main_v0 (F := Ideal) x0 x1 (ix3 b n o) = Attn.qkv x0 x1 b n o := by
  rw [val_main_v0_apply]
  unfold Attn.qkv
  refine Finset.sum_congr rfl fun k _ => ?_
  have el : lidx_main_v0 (ix3 b n o) k = ix3 b n k :=
    funext fun a => Fin.ext (by match a with | ⟨0, _⟩ => rfl | ⟨1, _⟩ => rfl | ⟨2, _⟩ => rfl)
  have er : ridx_main_v0 (ix3 b n o) k = ix2 o k :=
    funext fun a => Fin.ext (by match a with | ⟨0, _⟩ => rfl | ⟨1, _⟩ => rfl)
  rw [el, er]

/-- Splitting channel o of [8, 1024, 3072] as (s, h, d) of [8, 1024, 3, 16, 64]: o = s·1024 + h·64 + d. -/
theorem idx1_ix5 (b : Fin 8) (n : Fin 1024) (s : Fin 3) (h : Fin 16) (d : Fin 64) :
    idx_main_v1 (ix5 b n s h d) = ix3 b n (Attn.chan s h d) := funext fun a => Fin.ext (by
  have hb := b.isLt; have hn := n.isLt; have hs := s.isLt; have hh := h.isLt; have hd := d.isLt
  match a with
  | ⟨0, _⟩ => show ((((b.val * 1024 + n.val) * 3 + s.val) * 16 + h.val) * 64 + d.val) / 3145728 = b.val; omega
  | ⟨1, _⟩ => show ((((b.val * 1024 + n.val) * 3 + s.val) * 16 + h.val) * 64 + d.val) / 3072 % 1024 = n.val; omega
  | ⟨2, _⟩ => show ((((b.val * 1024 + n.val) * 3 + s.val) * 16 + h.val) * 64 + d.val) % 3072 = s.val * 1024 + h.val * 64 + d.val; omega)

/-- The transposition [2, 0, 3, 1, 4] read backwards. -/
theorem idx2_ix5 (s : Fin 3) (b : Fin 8) (h : Fin 16) (n : Fin 1024) (d : Fin 64) :
    idx_main_v2 (ix5 s b h n d) = ix5 b n s h d := funext fun a => Fin.ext (by
  match a with
  | ⟨0, _⟩ => rfl
  | ⟨1, _⟩ => rfl
  | ⟨2, _⟩ => rfl
  | ⟨3, _⟩ => rfl
  | ⟨4, _⟩ => rfl)

/-- Section 0 of the sliced axis. -/
theorem idx3_ix5 (b : Fin 8) (h : Fin 16) (n : Fin 1024) (d : Fin 64) :
    idx_main_v3 (ix5 (0 : Fin 1) b h n d) = ix5 (0 : Fin 3) b h n d := funext fun a => Fin.ext (by
  match a with
  | ⟨0, _⟩ => rfl
  | ⟨1, _⟩ => rfl
  | ⟨2, _⟩ => rfl
  | ⟨3, _⟩ => rfl
  | ⟨4, _⟩ => rfl)

/-- Section 1 of the sliced axis. -/
theorem idx5_ix5 (b : Fin 8) (h : Fin 16) (n : Fin 1024) (d : Fin 64) :
    idx_main_v5 (ix5 (0 : Fin 1) b h n d) = ix5 (1 : Fin 3) b h n d := funext fun a => Fin.ext (by
  match a with
  | ⟨0, _⟩ => rfl
  | ⟨1, _⟩ => rfl
  | ⟨2, _⟩ => rfl
  | ⟨3, _⟩ => rfl
  | ⟨4, _⟩ => rfl)

/-- Section 2 of the sliced axis. -/
theorem idx7_ix5 (b : Fin 8) (h : Fin 16) (n : Fin 1024) (d : Fin 64) :
    idx_main_v7 (ix5 (0 : Fin 1) b h n d) = ix5 (2 : Fin 3) b h n d := funext fun a => Fin.ext (by
  match a with
  | ⟨0, _⟩ => rfl
  | ⟨1, _⟩ => rfl
  | ⟨2, _⟩ => rfl
  | ⟨3, _⟩ => rfl
  | ⟨4, _⟩ => rfl)

/-- Merging the leading unit axis away keeps the four coordinates. -/
theorem idx4_ix4 (b : Fin 8) (h : Fin 16) (n : Fin 1024) (d : Fin 64) :
    idx_main_v4 (ix4 b h n d) = ix5 (0 : Fin 1) b h n d := funext fun a => Fin.ext (by
  have hb := b.isLt; have hh := h.isLt; have hn := n.isLt; have hd := d.isLt
  match a with
  | ⟨0, _⟩ => rfl
  | ⟨1, _⟩ => show (((b.val * 16 + h.val) * 1024 + n.val) * 64 + d.val) / 1048576 % 8 = b.val; omega
  | ⟨2, _⟩ => show (((b.val * 16 + h.val) * 1024 + n.val) * 64 + d.val) / 65536 % 16 = h.val; omega
  | ⟨3, _⟩ => show (((b.val * 16 + h.val) * 1024 + n.val) * 64 + d.val) / 64 % 1024 = n.val; omega
  | ⟨4, _⟩ => show (((b.val * 16 + h.val) * 1024 + n.val) * 64 + d.val) % 64 = d.val; omega)

/-- Merging the leading unit axis away keeps the four coordinates. -/
theorem idx6_ix4 (b : Fin 8) (h : Fin 16) (n : Fin 1024) (d : Fin 64) :
    idx_main_v6 (ix4 b h n d) = ix5 (0 : Fin 1) b h n d := funext fun a => Fin.ext (by
  have hb := b.isLt; have hh := h.isLt; have hn := n.isLt; have hd := d.isLt
  match a with
  | ⟨0, _⟩ => rfl
  | ⟨1, _⟩ => show (((b.val * 16 + h.val) * 1024 + n.val) * 64 + d.val) / 1048576 % 8 = b.val; omega
  | ⟨2, _⟩ => show (((b.val * 16 + h.val) * 1024 + n.val) * 64 + d.val) / 65536 % 16 = h.val; omega
  | ⟨3, _⟩ => show (((b.val * 16 + h.val) * 1024 + n.val) * 64 + d.val) / 64 % 1024 = n.val; omega
  | ⟨4, _⟩ => show (((b.val * 16 + h.val) * 1024 + n.val) * 64 + d.val) % 64 = d.val; omega)

/-- Merging the leading unit axis away keeps the four coordinates. -/
theorem idx8_ix4 (b : Fin 8) (h : Fin 16) (n : Fin 1024) (d : Fin 64) :
    idx_main_v8 (ix4 b h n d) = ix5 (0 : Fin 1) b h n d := funext fun a => Fin.ext (by
  have hb := b.isLt; have hh := h.isLt; have hn := n.isLt; have hd := d.isLt
  match a with
  | ⟨0, _⟩ => rfl
  | ⟨1, _⟩ => show (((b.val * 16 + h.val) * 1024 + n.val) * 64 + d.val) / 1048576 % 8 = b.val; omega
  | ⟨2, _⟩ => show (((b.val * 16 + h.val) * 1024 + n.val) * 64 + d.val) / 65536 % 16 = h.val; omega
  | ⟨3, _⟩ => show (((b.val * 16 + h.val) * 1024 + n.val) * 64 + d.val) / 64 % 1024 = n.val; omega
  | ⟨4, _⟩ => show (((b.val * 16 + h.val) * 1024 + n.val) * 64 + d.val) % 64 = d.val; omega)

/-- The query of batch b, head h, position n, lane d is channel (0, h, d) of the joint projection. -/
theorem query_apply (x0 : (⟨S8x1024x1024, .f32⟩ : BufTy).Contents (Elt Ideal)) (x1 : (⟨S3072x1024, .f32⟩ : BufTy).Contents (Elt Ideal)) (b : Fin 8) (h : Fin 16) (n : Fin 1024) (d : Fin 64) :
    val_main_v4 (F := Ideal) x0 x1 (ix4 b h n d) = Attn.qkv x0 x1 b n (Attn.chan 0 h d) := by
  rw [val_main_v4_apply, val_main_v3_apply, val_main_v2_apply, val_main_v1_apply, idx4_ix4, idx3_ix5, idx2_ix5, idx1_ix5,
    proj_apply]

/-- The key of batch b, head h, position n, lane d is channel (1, h, d) of the joint projection. -/
theorem key_apply (x0 : (⟨S8x1024x1024, .f32⟩ : BufTy).Contents (Elt Ideal)) (x1 : (⟨S3072x1024, .f32⟩ : BufTy).Contents (Elt Ideal)) (b : Fin 8) (h : Fin 16) (n : Fin 1024) (d : Fin 64) :
    val_main_v6 (F := Ideal) x0 x1 (ix4 b h n d) = Attn.qkv x0 x1 b n (Attn.chan 1 h d) := by
  rw [val_main_v6_apply, val_main_v5_apply, val_main_v2_apply, val_main_v1_apply, idx6_ix4, idx5_ix5, idx2_ix5, idx1_ix5,
    proj_apply]

/-- The value of batch b, head h, position n, lane d is channel (2, h, d) of the joint projection. -/
theorem value_apply (x0 : (⟨S8x1024x1024, .f32⟩ : BufTy).Contents (Elt Ideal)) (x1 : (⟨S3072x1024, .f32⟩ : BufTy).Contents (Elt Ideal)) (b : Fin 8) (h : Fin 16) (n : Fin 1024) (d : Fin 64) :
    val_main_v8 (F := Ideal) x0 x1 (ix4 b h n d) = Attn.qkv x0 x1 b n (Attn.chan 2 h d) := by
  rw [val_main_v8_apply, val_main_v7_apply, val_main_v2_apply, val_main_v1_apply, idx8_ix4, idx7_ix5, idx2_ix5, idx1_ix5,
    proj_apply]

end Cert.ReferenceIdeal.RefValue

end
-- ==== Proof.RefValue.Soft.lean ====
/-
  The reference's softmax stages read at coordinates, per batch b, head h and query position n: the scaled score
  against key position m, the row's maximum from −∞, the shifted exponentials, their sum, and the weights.
-/
import proofs.«130550_j23562190586362_2_alg».proof.Proof.RefValue.Proj

noncomputable section

namespace Cert.ReferenceIdeal.RefValue

open Cert.ReferenceIdeal Cert.ReferenceIdeal.Gen Cert.ReferenceIdeal.Read Idealize.ShloMosaic Idealize.ShloMosaic.ValueIdx
open scoped BigOperators

/-- The word 0xFF800000 is −∞, the least extended real. -/
theorem negInf_eq_bot : Attn.negInf = ⊥ := by simp [Ideal.ofBits, Ideal.ieee]

/-- The broadcast scale reads 1/8 everywhere. -/
theorem scale_apply (i : S8x16x1024x1024.Idx) : val_main_v10 (F := Ideal) i = Attn.eighth := by
  rw [val_main_v10_apply]; rfl

/-- The scaled score of query position n against key position m. -/
theorem score_apply (x0 : (⟨S8x1024x1024, .f32⟩ : BufTy).Contents (Elt Ideal)) (x1 : (⟨S3072x1024, .f32⟩ : BufTy).Contents (Elt Ideal)) (b : Fin 8) (h : Fin 16) (n m : Fin 1024) :
    val_main_v11 (F := Ideal) x0 x1 (ix4 b h n m) = Attn.score (Attn.qkv x0 x1) b h n m := by
  rw [val_main_v11_apply, Ideal.mulf_def, val_main_v9_apply, scale_apply]
  unfold Attn.score
  refine congrArg (· * Attn.eighth) (Finset.sum_congr rfl fun k _ => ?_)
  have el : lidx_main_v9 (ix4 b h n m) k = ix4 b h n k := funext fun a => Fin.ext (by match a with | ⟨0, _⟩ => rfl | ⟨1, _⟩ => rfl | ⟨2, _⟩ => rfl | ⟨3, _⟩ => rfl)
  have er : ridx_main_v9 (ix4 b h n m) k = ix4 b h m k := funext fun a => Fin.ext (by match a with | ⟨0, _⟩ => rfl | ⟨1, _⟩ => rfl | ⟨2, _⟩ => rfl | ⟨3, _⟩ => rfl)
  rw [el, er, query_apply, key_apply]

/-- Position (b, h, n) of the reduced array with coordinate k put back on the last axis is (b, h, n, k). -/
theorem lift_ix3 (hR : S8x16x1024x1024.Reduces [3] S8x16x1024) (b : Fin 8) (h : Fin 16) (n : Fin 1024)
    (k : Fin (S8x16x1024x1024.size 3)) : hR.lift (ix3 b h n) k = ix4 b h n (⟨k.val, k.isLt⟩ : Fin 1024) :=
  funext fun a => Fin.ext (by match a with | ⟨0, _⟩ => rfl | ⟨1, _⟩ => rfl | ⟨2, _⟩ => rfl | ⟨3, _⟩ => rfl)

/-- The reduction with a maximum body over the last axis, from −∞, is the row's maximum. -/
theorem reduceMax_apply (x0 : (⟨S8x1024x1024, .f32⟩ : BufTy).Contents (Elt Ideal)) (x1 : (⟨S3072x1024, .f32⟩ : BufTy).Contents (Elt Ideal)) (b : Fin 8) (h : Fin 16) (n : Fin 1024) :
    val_main_v12 (F := Ideal) x0 x1 (ix3 b h n) = Attn.rowMax (Attn.score (Attn.qkv x0 x1) b h n) := by
  have hR : S8x16x1024x1024.Reduces [3] S8x16x1024 := by decide
  unfold val_main_v12
  rw [Host.reduce_eq_fold_single FloatOps.maximumf _ _ reducesTo_S8x16x1024x1024_S8x16x1024_d3 hR h_S_]
  have hf : (val_main_v11 (F := Ideal) x0 x1 ∘ hR.lift (ix3 b h n)) = Attn.score (Attn.qkv x0 x1) b h n := funext fun k => by
    show val_main_v11 (F := Ideal) x0 x1 (hR.lift (ix3 b h n) k) = _
    rw [lift_ix3, score_apply]
    rfl
  unfold Attn.rowMax
  exact congrArg (fun f => Finset.fold max Attn.negInf f (Finset.univ : Finset (Fin 1024))) hf

/-- Taking the maximum with −∞ once more changes nothing. -/
theorem rowMax_apply (x0 : (⟨S8x1024x1024, .f32⟩ : BufTy).Contents (Elt Ideal)) (x1 : (⟨S3072x1024, .f32⟩ : BufTy).Contents (Elt Ideal)) (b : Fin 8) (h : Fin 16) (n : Fin 1024) :
    val_main_v14 (F := Ideal) x0 x1 (ix3 b h n) = Attn.rowMax (Attn.score (Attn.qkv x0 x1) b h n) := by
  rw [val_main_v14_apply, Ideal.maximumf_def, reduceMax_apply, val_main_v13_apply]
  show max Attn.negInf _ = _
  rw [negInf_eq_bot]
  exact max_eq_right bot_le

/-- The shifted exponential of entry m of the row. -/
theorem expo_apply (x0 : (⟨S8x1024x1024, .f32⟩ : BufTy).Contents (Elt Ideal)) (x1 : (⟨S3072x1024, .f32⟩ : BufTy).Contents (Elt Ideal)) (b : Fin 8) (h : Fin 16) (n m : Fin 1024) :
    val_main_v18 (F := Ideal) x0 x1 (ix4 b h n m) = Attn.expo (Attn.score (Attn.qkv x0 x1) b h n) m := by
  have e : idx_main_v15 (idx_main_v16 (ix4 b h n m)) = ix3 b h n := funext fun a => Fin.ext (by match a with | ⟨0, _⟩ => rfl | ⟨1, _⟩ => rfl | ⟨2, _⟩ => rfl)
  unfold Attn.expo
  rw [val_main_v18_apply, Ideal.hostUnary_exp_def, val_main_v17_apply, Ideal.subf_def, val_main_v16_apply, val_main_v15_apply, e,
    rowMax_apply, score_apply]

/-- The row's sum of exponentials (the reduction starts from the zero word). -/
theorem rowSum_apply (x0 : (⟨S8x1024x1024, .f32⟩ : BufTy).Contents (Elt Ideal)) (x1 : (⟨S3072x1024, .f32⟩ : BufTy).Contents (Elt Ideal)) (b : Fin 8) (h : Fin 16) (n : Fin 1024) :
    val_main_v19 (F := Ideal) x0 x1 (ix3 b h n) = ∑ m : Fin 1024, Attn.expo (Attn.score (Attn.qkv x0 x1) b h n) m := by
  rw [val_main_v19_apply]
  have hz : val_main_cst_2 (F := Ideal) (Shape.Idx.first h_S_) = 0 := Ideal.ofBits_zero_f32
  rw [hz, zero_add]
  refine Finset.sum_congr rfl fun k _ => ?_
  have e : idx_main_v19 (ix3 b h n) k = ix4 b h n k := funext fun a => Fin.ext (by match a with | ⟨0, _⟩ => rfl | ⟨1, _⟩ => rfl | ⟨2, _⟩ => rfl | ⟨3, _⟩ => rfl)
  rw [e, expo_apply]

/-- The softmax weight of entry m of the row. -/
theorem prob_apply (x0 : (⟨S8x1024x1024, .f32⟩ : BufTy).Contents (Elt Ideal)) (x1 : (⟨S3072x1024, .f32⟩ : BufTy).Contents (Elt Ideal)) (b : Fin 8) (h : Fin 16) (n m : Fin 1024) :
    val_main_v22 (F := Ideal) x0 x1 (ix4 b h n m) = Attn.prob (Attn.score (Attn.qkv x0 x1) b h n) m := by
  have e : idx_main_v20 (idx_main_v21 (ix4 b h n m)) = ix3 b h n := funext fun a => Fin.ext (by match a with | ⟨0, _⟩ => rfl | ⟨1, _⟩ => rfl | ⟨2, _⟩ => rfl)
  unfold Attn.prob
  rw [val_main_v22_apply, Ideal.hostDivf_def, val_main_v21_apply, val_main_v20_apply, e, rowSum_apply, expo_apply]

end Cert.ReferenceIdeal.RefValue

end
-- ==== Proof.RefValue.Out.lean ====
/-
  The reference's last stages read at coordinates: the weighted values per head, the heads laid side by side
  (channel c = h·64 + d), and the output projection plus bias.
-/
import proofs.«130550_j23562190586362_2_alg».proof.Proof.RefValue.Soft

noncomputable section

namespace Cert.ReferenceIdeal.RefValue

open Cert.ReferenceIdeal Cert.ReferenceIdeal.Gen Cert.ReferenceIdeal.Read Idealize.ShloMosaic Idealize.ShloMosaic.ValueIdx
open scoped BigOperators

/-- The attention output of batch b, head h, position n, lane d. -/
theorem attn_apply (x0 : (⟨S8x1024x1024, .f32⟩ : BufTy).Contents (Elt Ideal)) (x1 : (⟨S3072x1024, .f32⟩ : BufTy).Contents (Elt Ideal)) (b : Fin 8) (h : Fin 16) (n : Fin 1024) (d : Fin 64) :
    val_main_v23 (F := Ideal) x0 x1 (ix4 b h n d) = Attn.attn (Attn.qkv x0 x1) b n h d := by
  rw [val_main_v23_apply]
  unfold Attn.attn
  refine Finset.sum_congr rfl fun k _ => ?_
  have el : lidx_main_v23 (ix4 b h n d) k = ix4 b h n k := funext fun a => Fin.ext (by match a with | ⟨0, _⟩ => rfl | ⟨1, _⟩ => rfl | ⟨2, _⟩ => rfl | ⟨3, _⟩ => rfl)
  have er : ridx_main_v23 (ix4 b h n d) k = ix4 b h k d := funext fun a => Fin.ext (by match a with | ⟨0, _⟩ => rfl | ⟨1, _⟩ => rfl | ⟨2, _⟩ => rfl | ⟨3, _⟩ => rfl)
  rw [el, er, prob_apply, value_apply]

/-- Channel c of the merged array is lane c mod 64 of head c / 64. -/
theorem heads_apply (x0 : (⟨S8x1024x1024, .f32⟩ : BufTy).Contents (Elt Ideal)) (x1 : (⟨S3072x1024, .f32⟩ : BufTy).Contents (Elt Ideal)) (b : Fin 8) (n : Fin 1024) (c : Fin 1024) :
    val_main_v25 (F := Ideal) x0 x1 (ix3 b n c) = Attn.attn (Attn.qkv x0 x1) b n (Attn.headOf c) (Attn.laneOf c) := by
  have e : idx_main_v24 (idx_main_v25 (ix3 b n c)) = ix4 b (Attn.headOf c) n (Attn.laneOf c) := funext fun a => Fin.ext (by
    have hb := b.isLt; have hn := n.isLt; have hc := c.isLt
    match a with
    | ⟨0, _⟩ => show ((b.val * 1024 + n.val) * 1024 + c.val) / 1048576 = b.val; omega
    | ⟨1, _⟩ => show ((b.val * 1024 + n.val) * 1024 + c.val) / 64 % 16 = c.val / 64; omega
    | ⟨2, _⟩ => show ((b.val * 1024 + n.val) * 1024 + c.val) / 1024 % 1024 = n.val; omega
    | ⟨3, _⟩ => show ((b.val * 1024 + n.val) * 1024 + c.val) % 64 = c.val % 64; omega)
  rw [val_main_v25_apply, val_main_v24_apply, e, attn_apply]

/-- The whole layer at (b, n, o). -/
theorem out_apply (x0 : (⟨S8x1024x1024, .f32⟩ : BufTy).Contents (Elt Ideal)) (x1 : (⟨S3072x1024, .f32⟩ : BufTy).Contents (Elt Ideal)) (x2 : (⟨S1024x1024, .f32⟩ : BufTy).Contents (Elt Ideal)) (x3 : (⟨S1024, .f32⟩ : BufTy).Contents (Elt Ideal)) (b : Fin 8) (n : Fin 1024) (o : Fin 1024) :
    val_main_v29 (F := Ideal) x0 x1 x2 x3 (ix3 b n o) = Attn.out x0 x1 x2 x3 b n o := by
  have eb : idx_main_v27 (idx_main_v28 (ix3 b n o)) = ix1 o := funext fun a => Fin.ext (by match a with | ⟨0, _⟩ => rfl)
  unfold Attn.out
  rw [val_main_v29_apply, Ideal.addf_def, val_main_v28_apply, val_main_v27_apply, eb, val_main_v26_apply]
  refine congrArg (· + x3 (ix1 o)) (Finset.sum_congr rfl fun k _ => ?_)
  have el : lidx_main_v26 (ix3 b n o) k = ix3 b n k := funext fun a => Fin.ext (by match a with | ⟨0, _⟩ => rfl | ⟨1, _⟩ => rfl | ⟨2, _⟩ => rfl)
  have er : ridx_main_v26 (ix3 b n o) k = ix2 o k := funext fun a => Fin.ext (by match a with | ⟨0, _⟩ => rfl | ⟨1, _⟩ => rfl)
  rw [el, er, heads_apply]

end Cert.ReferenceIdeal.RefValue

end
-- ==== Proof.RefValue.lean ====
/-
  The reference program's result, as an array over [8, 1024, 1024], is the attention layer of the specification.
-/
import proofs.«130550_j23562190586362_2_alg».proof.Proof.RefValue.Out

noncomputable section

namespace Cert.ReferenceIdeal.RefValue

open Cert.ReferenceIdeal Cert.ReferenceIdeal.Gen Cert.ReferenceIdeal.Read Idealize.ShloMosaic Idealize.ShloMosaic.ValueIdx
open scoped BigOperators

/-- The reference computes the layer. -/
theorem ref_is_spec (x0 : (⟨S8x1024x1024, .f32⟩ : BufTy).Contents (Elt Ideal)) (x1 : (⟨S3072x1024, .f32⟩ : BufTy).Contents (Elt Ideal)) (x2 : (⟨S1024x1024, .f32⟩ : BufTy).Contents (Elt Ideal)) (x3 : (⟨S1024, .f32⟩ : BufTy).Contents (Elt Ideal)) :
    Cert.ReferenceIdeal.Read.val_main_v29 (F := Ideal) x0 x1 x2 x3 = Cert.Attn.outArr x0 x1 x2 x3 := by
  funext i
  obtain ⟨b, n, o, rfl⟩ : ∃ (b : Fin 8) (n : Fin 1024) (o : Fin 1024), i = ix3 b n o := ⟨i 0, i 1, i 2, eq_ix3 i⟩
  exact out_apply x0 x1 x2 x3 b n o

end Cert.ReferenceIdeal.RefValue

end
-- ==== Proof.lean ====
/-
  One attention layer as three kernels — the joint q/k/v projection, softmax attention two heads at a time, the output
  projection with its bias — against the same layer written with einsums, on the extended reals.

  Both programs compute, at (b, n, o),  Σ_c a(b,n,c) · w_proj(o,c) + bias(o)  where a(b,n,h·64+d) is the softmax-weighted
  sum over key positions m of the values v(b,h,m,d), the weights the row-wise softmax of (Σ_d q·k) · 1/8, and q, k, v are
  lanes of the joint projection x·w_qkvᵀ (Spec.lean). The kernels round to a shorter format on the way into each matrix
  product, which on the extended reals is the identity; they tile rows and head pairs where the reference batches; and each
  sum runs over the same terms, so only commutativity and associativity of + and · are used: the precondition is never
  opened.

  The frames: each program's run (Run.lean, once per program) holds every buffer that outlives a kernel at the fold of
  @main's segments from the launch memory, and the fold read at an argument array is the launch memory (Args.lean). The
  value: the fold read at the result array is the layer (KernelValue.lean over the three kernels' closed forms
  Val0–Val2.lean, which read each kernel's blocks back into one array through the bodies' arithmetic, MatPay.lean and
  AttnPay.lean, and Compose.lean); the reference's generated run ends at the same function (RefValue.lean). The ideal pass
  rewrote nothing, so the preservation conjunct is trivial.
-/
import proofs.«130550_j23562190586362_2_alg».proof.Defs
import proofs.«130550_j23562190586362_2_alg».proof.Proof.Gen.Kernel
import proofs.«130550_j23562190586362_2_alg».proof.Proof.Gen.KernelIdeal
import proofs.«130550_j23562190586362_2_alg».proof.Proof.Gen.ReferenceIdeal
import proofs.«130550_j23562190586362_2_alg».proof.Proof.Gen.Pre_finite_inputs
import proofs.«130550_j23562190586362_2_alg».proof.Proof.Gen.ReferenceIdeal.Run
import proofs.«130550_j23562190586362_2_alg».proof.Proof.Gen.ReferenceIdeal.Read
import proofs.«130550_j23562190586362_2_alg».proof.Proof.KI.Args
import proofs.«130550_j23562190586362_2_alg».proof.Proof.KB.Args
import proofs.«130550_j23562190586362_2_alg».proof.Proof.KernelValue
import proofs.«130550_j23562190586362_2_alg».proof.Proof.Val0
import proofs.«130550_j23562190586362_2_alg».proof.Proof.Val1
import proofs.«130550_j23562190586362_2_alg».proof.Proof.Val2
import proofs.«130550_j23562190586362_2_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W7_main_arg0 m ρ c),
     (h c _ (Cert.Kernel.Hand.mem_uc Cert.Kernel.main_arg1 (by decide))).trans (Cert.Kernel.Hand.W7_main_arg1 m ρ c),
     (h c _ (Cert.Kernel.Hand.mem_uc Cert.Kernel.main_arg2 (by decide))).trans (Cert.Kernel.Hand.W7_main_arg2 m ρ c),
     (h c _ (Cert.Kernel.Hand.mem_uc Cert.Kernel.main_arg3 (by decide))).trans (Cert.Kernel.Hand.W7_main_arg3 m ρ c)⟩)
    (Cert.Kernel.Hand.run_main (F := Bits) m ρ)

/-- The idealized kernel program runs and leaves its arguments as launched. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W7_main_arg0 m ρ c),
     (h c _ (Cert.KernelIdeal.Hand.mem_uc Cert.KernelIdeal.main_arg1 (by decide))).trans (Cert.KernelIdeal.Hand.W7_main_arg1 m ρ c),
     (h c _ (Cert.KernelIdeal.Hand.mem_uc Cert.KernelIdeal.main_arg2 (by decide))).trans (Cert.KernelIdeal.Hand.W7_main_arg2 m ρ c),
     (h c _ (Cert.KernelIdeal.Hand.mem_uc Cert.KernelIdeal.main_arg3 (by decide))).trans (Cert.KernelIdeal.Hand.W7_main_arg3 m ρ c)⟩)
    (Cert.KernelIdeal.Hand.run_main (F := Ideal) m ρ)

/-- The reference runs and leaves its arguments as launched: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the layer of those arguments in their
    result arrays. -/
theorem algebraic : Cert.algebraic_KernelIdeal_ReferenceIdeal := by
  intro m ρ m' ρ' _ hagree
  refine ⟨fun c => Cert.Attn.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c =>
      ⟨(h c _ (Cert.KernelIdeal.Hand.mem_uc Cert.KernelIdeal.main_v9 (by decide))).trans
          (Cert.KernelIdeal.Hand.result_eq m ρ c Cert.KernelIdeal.Hand.final0 Cert.KernelIdeal.Hand.final1 Cert.KernelIdeal.Hand.final2),
       (h c _ (Cert.KernelIdeal.Hand.mem_uc Cert.KernelIdeal.main_arg0 (by decide))).trans (Cert.KernelIdeal.Hand.W7_main_arg0 m ρ c),
       (h c _ (Cert.KernelIdeal.Hand.mem_uc Cert.KernelIdeal.main_arg1 (by decide))).trans (Cert.KernelIdeal.Hand.W7_main_arg1 m ρ c),
       (h c _ (Cert.KernelIdeal.Hand.mem_uc Cert.KernelIdeal.main_arg2 (by decide))).trans (Cert.KernelIdeal.Hand.W7_main_arg2 m ρ c),
       (h c _ (Cert.KernelIdeal.Hand.mem_uc Cert.KernelIdeal.main_arg3 (by decide))).trans (Cert.KernelIdeal.Hand.W7_main_arg3 m ρ c)⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v29_eq, Cert.ReferenceIdeal.RefValue.ref_is_spec,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
